-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S1 .f32) (main_arg5 : FVec F S600000 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S600000 .f32 := Host.absf main_arg5
  let main_cst_8 : FVec F S_ .f32 := constant S_ .f32 0x7F800000#32
  let main_v25 : FVec F S600000 .f32 := broadcastInDim S600000 ![] bcast_S_S600000 main_cst_8
  let main_v26 : IVec S600000 1 := cmpf .olt main_v24 main_v25
  let main_c_9 : IVec S_ 1 := constantI S_ 1 1#1
  let main_v27 : IVec S_ 1 := (fun x v => Host.reduce IntOp.andi x v reducesTo_S600000_S_d0 h_S_) main_v26 main_c_9
  let main_v28 : IVec S_ 1 := andi main_v23 main_v27
  main_v28

def fn {F : FTy → Type} [FloatOps F] (main_arg0 : FVec F S50000x128 .f32) (main_arg1 : FVec F S128x256 .f32) (main_arg2 : FVec F S128 .f32) (main_arg3 : FVec F S1x128 .f32) (main_arg4 : FVec F S1 .f32) (main_arg5 : FVec F S600000 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_v13 main_v16
-- ==== Kernel.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S606208 : Shape := ⟨1, ![606208]⟩
abbrev S606208x1 : Shape := ⟨2, ![606208, 1]⟩
abbrev S606208x128 : Shape := ⟨2, ![606208, 128]⟩
abbrev S1x606208 : Shape := ⟨2, ![1, 606208]⟩
abbrev S128x128 : Shape := ⟨2, ![128, 128]⟩
abbrev S1x1 : Shape := ⟨2, ![1, 1]⟩
abbrev S2x1x1 : Shape := ⟨3, ![2, 1, 1]⟩
abbrev S8192x128 : Shape := ⟨2, ![8192, 128]⟩
abbrev S1x8192 : Shape := ⟨2, ![1, 8192]⟩
abbrev S1x1x1 : Shape := ⟨3, ![1, 1, 1]⟩

abbrev nBuf : Space → Nat
  | .hbm => 60
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S50000x128, .bf16⟩
  | .hbm, ⟨12, _⟩ => ⟨S_, .i32⟩
  | .hbm, ⟨13, _⟩ => ⟨S_, .i32⟩
  | .hbm, ⟨14, _⟩ => ⟨S606208, .i32⟩
  | .hbm, ⟨15, _⟩ => ⟨S_, .i32⟩
  | .hbm, ⟨16, _⟩ => ⟨S_, .i32⟩
  | .hbm, ⟨17, _⟩ => ⟨S606208, .i32⟩
  | .hbm, ⟨18, _⟩ => ⟨S_, .i32⟩
  | .hbm, ⟨19, _⟩ => ⟨S606208, .i32⟩
  | .hbm, ⟨20, _⟩ => ⟨S606208, .i1⟩
  | .hbm, ⟨21, _⟩ => ⟨S_, .i32⟩
  | .hbm, ⟨22, _⟩ => ⟨S606208, .i32⟩
  | .hbm, ⟨23, _⟩ => ⟨S606208, .i32⟩
  | .hbm, ⟨24, _⟩ => ⟨S606208, .i32⟩
  | .hbm, ⟨25, _⟩ => ⟨S606208x1, .i32⟩
  | .hbm, ⟨26, _⟩ => ⟨S606208x128, .bf16⟩
  | .hbm, ⟨27, _⟩ => ⟨S_, .i32⟩
  | .hbm, ⟨28, _⟩ => ⟨S606208, .i32⟩
  | .hbm, ⟨29, _⟩ => ⟨S606208, .i1⟩
  | .hbm, ⟨30, _⟩ => ⟨S_, .i32⟩
  | .hbm, ⟨31, _⟩ => ⟨S606208, .i32⟩
  | .hbm, ⟨32, _⟩ => ⟨S606208, .i32⟩
  | .hbm, ⟨33, _⟩ => ⟨S606208, .i32⟩
  | .hbm, ⟨34, _⟩ => ⟨S606208x1, .i32⟩
  | .hbm, ⟨35, _⟩ => ⟨S606208x128, .bf16⟩
  | .hbm, ⟨36, _⟩ => ⟨S_, .i32⟩
  | .hbm, ⟨37, _⟩ => ⟨S_, .f32⟩
  | .hbm, ⟨38, _⟩ => ⟨S606208, .f32⟩
  | .hbm, ⟨39, _⟩ => ⟨S1x606208, .f32⟩
  | .hbm, ⟨40, _⟩ => ⟨S606208, .i32⟩
  | .hbm, ⟨41, _⟩ => ⟨S_, .i32⟩
  | .hbm, ⟨42, _⟩ => ⟨S606208, .i32⟩
  | .hbm, ⟨43, _⟩ => ⟨S606208, .i1⟩
  | .hbm, ⟨44, _⟩ => ⟨S606208, .f32⟩
  | .hbm, ⟨45, _⟩ => ⟨S1x606208, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S1x128, .bf16⟩
  | .hbm, ⟨53, _⟩ => ⟨S1x128, .f32⟩
  | .hbm, ⟨54, _⟩ => ⟨S1x1, .f32⟩
  | .hbm, ⟨55, _⟩ => ⟨S2x1x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .bf16⟩
  | .local _ .vmem, ⟨12, _⟩ => ⟨S1x1, .f32⟩
  | .local _ .vmem, ⟨13, _⟩ => ⟨S1x1x1, .f32⟩
  | .local _ .vmem, ⟨14, _⟩ => ⟨S1x1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_call2_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 37], ![false, false]⟩

def cc0_transform_0 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  pads_S600000_S606208_062080 : S600000.Pads (![0] : Fin 1 → Nat) ![6208] ![0] S606208
  h_S_ : 0 < S_.numel
  bcast_S_S606208 : S_.BroadcastsInDim S606208 (![] : Fin 0 → Fin S606208.rank)
  bcast_S606208_S606208x1_0 : S606208.BroadcastsInDim S606208x1 (![0] : Fin 1 → Fin S606208x1.rank)
  shapeCasts_S606208_S1x606208 : S606208.ShapeCasts S1x606208
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S1x8192_S1 : S1x8192.Reduces [1] S1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  gather_S50000x128_S606208x1_S606208x128_1_0_n_n_0_1_1128_wf : GatherDims.WF S50000x128 S606208x1 S606208x128 [1] [0] [] [0] [] 1 ![1, 128]
  dot_S8192x128_S128x128_S8192x128_1_0_0_1_n_n_wf : DotDims.WF S8192x128 S128x128 S8192x128 [1] [0] [0] [1] [] []
  dot_S1x128_S8192x128_S1x8192_1_1_0_0_n_n_wf : DotDims.WF S1x128 S8192x128 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S606208x128.size a
  hwx0_0 : ∀ i : grid0.Coords, EltTy.bits .bf16 = 32 ∨ (Rect.block (s := S606208x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S606208x128.size a
  hwx0_1 : ∀ i : grid0.Coords, EltTy.bits .bf16 = 32 ∨ (Rect.block (s := S606208x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x606208.size a
  hwx0_2 : ∀ i : grid0.Coords, EltTy.bits .f32 = 32 ∨ (Rect.block (s := S1x606208) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x606208.size a
  hwx0_3 : ∀ i : grid0.Coords, EltTy.bits .f32 = 32 ∨ (Rect.block (s := S1x606208) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)

variable [Facts₀]

def gather_S50000x128_S606208x1_S606208x128_1_0_n_n_0_1_1128 : GatherDims S50000x128 S606208x1 S606208x128 where
  offsetDims := [1]
  collapsedSliceDims := [0]
  operandBatchingDims := []
  startIndicesBatchingDims := []
  startIndexMap := [0]
  indexVectorDim := 1
  sliceSizes := ![1, 128]
  wf := gather_S50000x128_S606208x1_S606208x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf

abbrev win0_0 : Pipeline.Window sig grid0 :=
  Pipeline.Window.ofSpec (Memref.whole main_v13) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S600000 : Shape := ⟨1, ![600000]⟩
abbrev S2x600000 : Shape := ⟨2, ![2, 600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S600000, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x256, .f32⟩
  | .hbm, ⟨30, _⟩ => ⟨S256x128, .f32⟩
  | .hbm, ⟨31, _⟩ => ⟨S600000x128, .f32⟩
  | .hbm, ⟨32, _⟩ => ⟨S1x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S128x1, .f32⟩
  | .hbm, ⟨39, _⟩ => ⟨S600000x1, .f32⟩
  | .hbm, ⟨40, _⟩ => ⟨S1x1, .f32⟩
  | .hbm, ⟨41, _⟩ => ⟨S600000x1, .f32⟩
  | .hbm, ⟨42, _⟩ => ⟨S600000x1, .f32⟩
  | .hbm, ⟨43, _⟩ => ⟨S600000, .f32⟩
  | .hbm, ⟨44, _⟩ => ⟨S600000, .f32⟩
  | .hbm, ⟨45, _⟩ => ⟨S_, .f32⟩
  | .hbm, ⟨46, _⟩ => ⟨S600000, .f32⟩
  | .hbm, ⟨47, _⟩ => ⟨S600000, .f32⟩
  | .hbm, ⟨48, _⟩ => ⟨S600000, .f32⟩
  | .hbm, ⟨49, _⟩ => ⟨S600000, .f32⟩
  | .hbm, ⟨50, _⟩ => ⟨S600000, .i1⟩
  | .hbm, ⟨51, _⟩ => ⟨S600000, .f32⟩
  | .hbm, ⟨52, _⟩ => ⟨S600000, .f32⟩
  | .hbm, ⟨53, _⟩ => ⟨S600000, .f32⟩
  | .hbm, ⟨54, _⟩ => ⟨S600000, .f32⟩
  | .hbm, ⟨55, _⟩ => ⟨S600000, .f32⟩
  | .hbm, ⟨56, _⟩ => ⟨S600000, .f32⟩
  | .hbm, ⟨57, _⟩ => ⟨S600000, .f32⟩
  | .hbm, ⟨58, _⟩ => ⟨S600000, .f32⟩
  | .hbm, ⟨59, _⟩ => ⟨S600000, .f32⟩
  | .hbm, ⟨60, _⟩ => ⟨S600000, .f32⟩
  | .hbm, ⟨61, _⟩ => ⟨S_, .f32⟩
  | .hbm, ⟨62, _⟩ => ⟨S600000, .f32⟩
  | .hbm, ⟨63, _⟩ => ⟨S600000, .f32⟩
  | .hbm, ⟨64, _⟩ => ⟨S600000, .f32⟩
  | .hbm, ⟨65, _⟩ => ⟨S600000, .f32⟩
  | .hbm, ⟨66, _⟩ => ⟨S_, .f32⟩
  | .hbm, ⟨67, _⟩ => ⟨S600000, .f32⟩
  | .hbm, ⟨68, _⟩ => ⟨S600000, .f32⟩
  | .hbm, ⟨69, _⟩ => ⟨S600000, .f32⟩
  | .hbm, ⟨70, _⟩ => ⟨S600000, .f32⟩
  | .hbm, ⟨71, _⟩ => ⟨S600000, .i1⟩
  | .hbm, ⟨72, _⟩ => ⟨S600000, .f32⟩
  | .hbm, ⟨73, _⟩ => ⟨S600000, .f32⟩
  | .hbm, ⟨74, _⟩ => ⟨S600000, .f32⟩
  | .hbm, ⟨75, _⟩ => ⟨S600000, .f32⟩
  | .hbm, ⟨76, _⟩ => ⟨S600000, .f32⟩
  | .hbm, ⟨77, _⟩ => ⟨S600000, .f32⟩
  | .hbm, ⟨78, _⟩ => ⟨S600000, .f32⟩
  | .hbm, ⟨79, _⟩ => ⟨S600000, .f32⟩
  | .hbm, ⟨80, _⟩ => ⟨S600000, .f32⟩
  | .hbm, ⟨81, _⟩ => ⟨S600000, .f32⟩
  | .hbm, ⟨82, _⟩ => ⟨S600000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v31 : Ref sig .tc := ⟨.hbm, 59, rfl⟩
abbrev main_v32 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_3 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S1x128_S128x1_1_0 : S1x128.Transposes [1, 0] S128x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  reducesTo_S600000_S_d0 : S600000.ReducesTo [0] S_
  h_S_ : 0 < S_.numel
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x1_S600000x1_1_0_0_1_n_n_wf : DotDims.WF S600000x128 S128x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.KCases.lean ====
/-
  What one grid point leaves in the output's staging buffer.

  The body keeps a running sum in a one-element block. At the first point of a core's 37 it stores zero there,
  reads that zero back, and stores zero plus the point's lane sum; at every other point it reads what the point
  before left and stores that plus the point's lane sum. Both are the same pure function `k0_pay1` of the
  point's logits, labels, weights and absolute logits, applied to the value carried in: the zero splat in the
  first case, the previous contents in the second.
-/
import proofs.«145935_j4123168604526_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.KValue
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The point's contribution added to a carried value `acc`: the body's one covering store, as a function of
    the nine input blocks. -/
def step (x0 : Vec F S8192x128 .bf16) (x1 : Vec F S8192x128 .bf16) (x2 : Vec F S1x8192 .f32) (x3 : Vec F S1x8192 .f32)
    (x4 : Vec F S128x128 .bf16) (x5 : Vec F S128x128 .bf16) (x6 : Vec F S1x128 .f32) (x7 : Vec F S1x128 .bf16)
    (x8 : Vec F S1x1 .f32) (acc : Vec F S1x1x1 .f32) : Vec F S1x1x1 .f32 :=
  k0_pay1 (k0_pay3 x0 x1 x4 x5 x6 x7 x8) (k0_pay4 x2) (k0_pay5 x3) (k0_pay6 x0 x1 x4 x5 x6 x7 x8) acc

/-- A point that is not a core's first: the carried value is what the point before left. -/
theorem out_B (c : Dev nD) (i : grid0.Coords) (a2 : Memref sig .tc .vmem S8192x128 .bf16) (h2 : a2.IsWhole) (a3 : Memref sig .tc .vmem S8192x128 .bf16) (h3 : a3.IsWhole) (a4 : Memref sig .tc .vmem S1x8192 .f32) (h4 : a4.IsWhole) (a5 : Memref sig .tc .vmem S1x8192 .f32) (h5 : a5.IsWhole) (a6 : Memref sig .tc .vmem S128x128 .bf16) (h6 : a6.IsWhole) (a7 : Memref sig .tc .vmem S128x128 .bf16) (h7 : a7.IsWhole) (a8 : Memref sig .tc .vmem S1x128 .f32) (h8 : a8.IsWhole) (a9 : Memref sig .tc .vmem S1x128 .bf16) (h9 : a9.IsWhole) (a10 : Memref sig .tc .vmem S1x1 .f32) (h10 : a10.IsWhole) (a11 : Memref sig .tc .vmem S1x1x1 .f32) (h11 : a11.IsWhole) (hc : ¬cond0_0 i) (x0 : Vec F S8192x128 .bf16) (x1 : Vec F S8192x128 .bf16) (x2 : Vec F S1x8192 .f32) (x3 : Vec F S1x8192 .f32) (x4 : Vec F S128x128 .bf16) (x5 : Vec F S128x128 .bf16) (x6 : Vec F S1x128 .f32) (x7 : Vec F S1x128 .bf16) (x8 : Vec F S1x1 .f32) (xo : Vec F S1x1x1 .f32) :
    out0_B_9 c i a2 h2 a3 h3 a4 h4 a5 h5 a6 h6 a7 h7 a8 h8 a9 h9 a10 h10 a11 h11 hc x0 x1 x2 x3 x4 x5 x6 x7 x8 xo = step x0 x1 x2 x3 x4 x5 x6 x7 x8 xo := by
  unfold out0_B_9 step
  rw [View.read_writes_eq_canon _ _ _ (cover0_B_9 c i a2 h2 a3 h3 a4 h4 a5 h5 a6 h6 a7 h7 a8 h8 a9 h9 a10 h10 a11 h11 hc x0 x1 x2 x3 x4 x5 x6 x7 x8 xo)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, h10.read_unread, h11.read_unread,
    View.ld_unit_zero (S := S1x1x1) hz3, View.ld_unit_zero (S := S8192x128) hz2, View.ld_unit_zero (S := S1x8192) hz2,
    View.ld_unit_zero (S := S128x128) hz2, View.ld_unit_zero (S := S1x128) hz2, View.ld_unit_zero (S := S1x1) hz2]

/-- A core's first point: the carried value is the zero splat the body has just stored. -/
theorem out_A (c : Dev nD) (i : grid0.Coords) (a2 : Memref sig .tc .vmem S8192x128 .bf16) (h2 : a2.IsWhole) (a3 : Memref sig .tc .vmem S8192x128 .bf16) (h3 : a3.IsWhole) (a4 : Memref sig .tc .vmem S1x8192 .f32) (h4 : a4.IsWhole) (a5 : Memref sig .tc .vmem S1x8192 .f32) (h5 : a5.IsWhole) (a6 : Memref sig .tc .vmem S128x128 .bf16) (h6 : a6.IsWhole) (a7 : Memref sig .tc .vmem S128x128 .bf16) (h7 : a7.IsWhole) (a8 : Memref sig .tc .vmem S1x128 .f32) (h8 : a8.IsWhole) (a9 : Memref sig .tc .vmem S1x128 .bf16) (h9 : a9.IsWhole) (a10 : Memref sig .tc .vmem S1x1 .f32) (h10 : a10.IsWhole) (a11 : Memref sig .tc .vmem S1x1x1 .f32) (h11 : a11.IsWhole) (hc : cond0_0 i) (x0 : Vec F S8192x128 .bf16) (x1 : Vec F S8192x128 .bf16) (x2 : Vec F S1x8192 .f32) (x3 : Vec F S1x8192 .f32) (x4 : Vec F S128x128 .bf16) (x5 : Vec F S128x128 .bf16) (x6 : Vec F S1x128 .f32) (x7 : Vec F S1x128 .bf16) (x8 : Vec F S1x1 .f32) :
    out0_A_9 c i a2 h2 a3 h3 a4 h4 a5 h5 a6 h6 a7 h7 a8 h8 a9 h9 a10 h10 a11 h11 hc x0 x1 x2 x3 x4 x5 x6 x7 x8 = step x0 x1 x2 x3 x4 x5 x6 x7 x8 (k0_pay2 (F := F)) := by
  unfold out0_A_9 step
  rw [View.read_writes_eq_canon _ _ _ (cover0_A_9 c i a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread,
    h7.read_unread, h8.read_unread, h9.read_unread, h10.read_unread, h11.read_unread,
    View.ld_unit_zero (S := S1x1x1) hz3, View.ld_unit_zero (S := S8192x128) hz2, View.ld_unit_zero (S := S1x8192) hz2,
    View.ld_unit_zero (S := S128x128) hz2, View.ld_unit_zero (S := S1x128) hz2, View.ld_unit_zero (S := S1x1) hz2]

end Cert.KernelIdeal.KValue
end
-- ==== Proof.KChain.lean ====
/-
  The output's staging buffer after point `n` is a running sum.

  The 74 grid points are two runs of 37, one per core. Within a run the body adds each point's lane sum to the
  block's one element; at a run's first point the sum restarts from zero. So what the staging buffer holds after
  point `n` is a chain: restart at the points divisible by 37, otherwise the previous point's contents plus this
  point's contribution. Proved by induction on the point, never by enumerating the grid.
-/
import proofs.«145935_j4123168604526_2_alg».proof.Proof.KCases

noncomputable section
open Idealize.ShloMosaic Idealize.ShloMosaic.TcCoe Idealize.SL.Sem
open Idealize.ShloMosaic.Pipeline (Dat)

namespace Cert.KernelIdeal.KValue
open Cert.KernelIdeal Cert.KernelIdeal.Gen
variable {F : FTy → Type} [FloatOps F]
variable (m : (ℓ : Loc nD τ sig) → Buf (Elt F) ℓ)

/-- Point `t`'s contribution added to a carried value: `step` at the point's nine input blocks. -/
def stepAt (c : Dev nD) (t : Fin cfg0.N) (acc : Vec F S1x1x1 .f32) : Vec F S1x1x1 .f32 :=
  step (iblk m c 0 t) (iblk m c 1 t) (iblk m c 2 t) (iblk m c 3 t) (iblk m c 4 t) (iblk m c 5 t) (iblk m c 6 t)
    (iblk m c 7 t) (iblk m c 8 t) acc

/-- The running sum after point `n`. -/
def chain (c : Dev nD) : (n : ℕ) → n < cfg0.N → Vec F S1x1x1 .f32
  | 0, h => stepAt m c ⟨0, h⟩ (k0_pay2 (F := F))
  | n + 1, h =>
    if (n + 1) % 37 = 0 then stepAt m c ⟨n + 1, h⟩ (k0_pay2 (F := F))
    else stepAt m c ⟨n + 1, h⟩ (chain c n (Nat.lt_of_succ_lt h))

/-- What the generated frame says the staging buffer holds after point `n` is that running sum. -/
theorem outsAt_eq (c : Dev nD) : ∀ (n : ℕ) (h : n < cfg0.N), outsAt0 m c n h = chain m c n h
  | 0, h => (outsAt0_A m c ⟨0, h⟩ (Nat.zero_mod 37)).trans (out_A ..)
  | n + 1, h => by
    by_cases h0 : (n + 1) % 37 = 0
    · rw [outsAt0_A m c ⟨n + 1, h⟩ h0, out_A]
      unfold chain
      rw [if_pos h0]
      rfl
    · rw [outsAt0_B m c ⟨n + 1, h⟩ h0, out_B]
      unfold chain
      rw [if_neg h0]
      show step _ _ _ _ _ _ _ _ _ (outsAt0 m c n _) = step _ _ _ _ _ _ _ _ _ (chain m c n _)
      rw [outsAt_eq c n]

end Cert.KernelIdeal.KValue
end
-- ==== Proof.Spec.lean ====
/-
  The link-prediction loss as ONE function of the argument arrays.

  An edge `e` of the 600000 joins the two nodes whose rows of the table `x` the index words `pairs[0, e]` and
  `pairs[1, e]` select (a negative word counts from the end of the table; the row is clamped into the table). The
  edge's 256 features are the two rows side by side; a first linear layer with a rectifier gives 128 hidden values,
  a second linear layer one logit `z`. The edge's term is the binary cross-entropy with logits,
  `y · log σ(z) + (1 - y) · log σ(-z)` with `log σ(u) = -softplus(-u)` and
  `softplus(v) = max v 0 + log (1 + exp (-|v|))`, and the loss is minus the mean of the terms over the edges.

  Everything is stated on the extended reals, with the operations' exact meanings there; the float literals are
  kept as their bit patterns (the same pattern on both sides of an equation is never evaluated).
-/
import Idealize.ShloMosaic.PureOps.Ideal
import Idealize.ShloMosaic.PureOps.Ideal.Laws
import Idealize.ShloMosaic.Lib.ValueIdx

noncomputable section

namespace LinkLoss

open Idealize.ShloMosaic Idealize.ShloMosaic.ValueIdx

/-- The table row an index word selects: a negative word counts from the end (the table's height is added),
    and the result, read as a signed integer, is clamped into the table. -/
def node (w : BitVec 32) : Fin 50000 :=
  ⟨min (Scalar.select (IntOp.cmpi .slt w 0#32) (IntOp.addi w 50000#32) w).toInt.toNat 49999,
    Nat.lt_succ_of_le (Nat.min_le_right _ _)⟩

/-- The float literals of the two programs: zero, one, and the number of edges. -/
abbrev zeroLit : EReal := Ideal.ofBits .f32 0x00000000#32
abbrev oneLit : EReal := Ideal.ofBits .f32 0x3F800000#32
abbrev countLit : EReal := Ideal.ofBits .f32 0x49127C00#32

section
variable (x : (⟨2, ![50000, 128]⟩ : Shape).Idx → EReal) (W1 : (⟨2, ![128, 256]⟩ : Shape).Idx → EReal)
  (b1 : (⟨1, ![128]⟩ : Shape).Idx → EReal) (W2 : (⟨2, ![1, 128]⟩ : Shape).Idx → EReal)
  (b2 : (⟨1, ![1]⟩ : Shape).Idx → EReal) (lab : (⟨1, ![600000]⟩ : Shape).Idx → EReal)
  (pairs : (⟨2, ![2, 600000]⟩ : Shape).Idx → BitVec 32)

/-- Feature `k` of edge `e`: the first 128 are the source node's row, the last 128 the target node's. -/
def feat (e : Fin 600000) (k : Fin 256) : EReal :=
  if h : k.val < 128 then x (ix2 (node (pairs (ix2 (0 : Fin 2) e))) (⟨k.val, h⟩ : Fin 128))
  else x (ix2 (node (pairs (ix2 (1 : Fin 2) e))) (⟨k.val - 128, by omega⟩ : Fin 128))

/-- Hidden value `d` of edge `e`: the rectified first layer. -/
def hidden (e : Fin 600000) (d : Fin 128) : EReal :=
  max ((∑ k : Fin 256, feat x pairs e k * W1 (ix2 d k)) + b1 (ix1 d)) zeroLit

/-- The logit of edge `e`: the second layer. -/
def logit (e : Fin 600000) : EReal :=
  (∑ d : Fin 128, hidden x W1 b1 pairs e d * W2 (ix2 (0 : Fin 1) d)) + b2 (ix1 (0 : Fin 1))

end

/-- `softplus v = max v 0 + log (1 + exp (-|v - 0|))`, the absolute value spelt `max a (-a)`. -/
def softplus (v : EReal) : EReal :=
  max v zeroLit + Ideal.log1p (Ideal.exp (-(max (v - zeroLit) (-(v - zeroLit)))))

/-- `log σ(u) = -softplus(-u)`. -/
def logSigmoid (u : EReal) : EReal := -(softplus (-u))

/-- One edge's term: `y · log σ(z) + (1 - y) · log σ(-z)`. -/
def term (y z : EReal) : EReal := y * logSigmoid z + (oneLit - y) * logSigmoid (-z)

section
variable (x : (⟨2, ![50000, 128]⟩ : Shape).Idx → EReal) (W1 : (⟨2, ![128, 256]⟩ : Shape).Idx → EReal)
  (b1 : (⟨1, ![128]⟩ : Shape).Idx → EReal) (W2 : (⟨2, ![1, 128]⟩ : Shape).Idx → EReal)
  (b2 : (⟨1, ![1]⟩ : Shape).Idx → EReal) (lab : (⟨1, ![600000]⟩ : Shape).Idx → EReal)
  (pairs : (⟨2, ![2, 600000]⟩ : Shape).Idx → BitVec 32)

/-- THE LOSS: minus the mean over the edges of the terms (the sum started from the zero literal). -/
def loss : EReal :=
  -(Ideal.div (zeroLit + ∑ e : Fin 600000, term (lab (ix1 e)) (logit x W1 b1 W2 b2 pairs e)) countLit)

end

end LinkLoss

end
-- ==== Proof.KSpec.lean ====
/-
  The kernel's arrangement of one edge's loss term.

  For a logit `z`, its absolute value `a`, a label `y` and a weight `w` the body computes
  `(0 - (y · (min z 0 - L) + (1 - y) · (min (0 - z) 0 - L))) · w` with `L = log (1 + exp (0 - a))`: minus the
  reference's term, written with minima where the reference has `-max`, and masked by the weight.
-/
import proofs.«145935_j4123168604526_2_alg».proof.Proof.Spec

noncomputable section

namespace LinkLoss

open Idealize.ShloMosaic

/-- The body's term for one lane. -/
def kTerm (y z a w : EReal) : EReal :=
  (zeroLit - (y * (min z zeroLit - Ideal.log1p (Ideal.exp (zeroLit - a)))
    + (oneLit - y) * (min (zeroLit - z) zeroLit - Ideal.log1p (Ideal.exp (zeroLit - a))))) * w

end LinkLoss

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.KPayload.lean ====
/-
  The body's arithmetic read at an index, on the extended reals.

  The logit of lane `l` of a block is the second layer applied to the rectified first layer of row `l` of the
  two gathered blocks: `∑ d, w2 (0, d) · max ((∑ k, xu (l, k) · wa (k, d)) + (∑ k, xv (l, k) · wb (k, d)) + b1 (0, d)) 0
  + b2 (0, 0)` — the two halves of the first layer as two plain products, the second layer as a product with the
  right operand contracted on its last axis. The stored element is the carried value plus the sum over the 8192
  lanes of the body's term `kTerm` of the lane's label, logit, absolute logit and weight.
-/
import proofs.«145935_j4123168604526_2_alg».proof.Proof.Gen.KernelIdeal.Skeleton
import proofs.«145935_j4123168604526_2_alg».proof.Proof.KSpec
import proofs.«145935_j4123168604526_2_alg».proof.Proof.LibPlainDot
import proofs.«145935_j4123168604526_2_alg».proof.Proof.LibRowOps
import proofs.«145935_j4123168604526_2_alg».proof.Proof.LibTransposedDot
import Idealize.ShloMosaic.Lib.Pipeline.Value
import Idealize.ShloMosaic.Lib.ValueLayout

noncomputable section
open Idealize.ShloMosaic Idealize.ShloMosaic.ValueIdx

namespace Cert.KernelIdeal.KValue
open Cert.KernelIdeal Cert.KernelIdeal.Gen

/-- The first layer's dimension numbers are the plain product's, the second layer's the transposed-right one's. -/
theorem dotPlain_eq : dot_S8192x128_S128x128_S8192x128_1_0_0_1_n_n = DotDims.plain 8192 128 128 := rfl
theorem dotT_eq : dot_S1x128_S8192x128_S1x8192_1_1_0_0_n_n = DotDims.transposedRhs 1 128 8192 := rfl

/-- The rectified first layer at row `r`, hidden unit `d`. -/
theorem hidden_apply (v4 v6 : FVec Ideal S8192x128 .bf16) (v8 v11 : FVec Ideal S128x128 .bf16) (v15 : FVec Ideal S1x128 .f32)
    (r : Fin 8192) (d : Fin 128) :
    (truncf .bf16 (maximumf (addf (addf
        (matmul dot_S8192x128_S128x128_S8192x128_1_0_0_1_n_n none v4 v8 (constant S8192x128 .f32 0x00000000#32))
        (matmul dot_S8192x128_S128x128_S8192x128_1_0_0_1_n_n none v6 v11 (constant S8192x128 .f32 0x00000000#32)))
        (broadcastTo S8192x128 v15 broadcasts_S1x128_S8192x128))
        (broadcast S8192x128 (Scalar.ofBits (F := Ideal) .f32 0x00000000#32))) bitsLt_bf16_f32 : FVec Ideal S8192x128 .bf16) (ix2 r d)
      = max (((∑ k : Fin 128, v4 (ix2 r k) * v8 (ix2 k d)) + ∑ k : Fin 128, v6 (ix2 r k) * v11 (ix2 k d))
          + v15 (ix2 (0 : Fin 1) d)) LinkLoss.zeroLit := by
  have e1 := Gcn.Lib.plain_matmul_zero_apply (M := 8192) (K := 128) (N := 128) v4 v8 none r d
  have e2 := Gcn.Lib.plain_matmul_zero_apply (M := 8192) (K := 128) (N := 128) v6 v11 none r d
  have e3 := broadcastTo_1b_ab_apply (a := 8192) (b := 128) v15 broadcasts_S1x128_S8192x128 r d
  exact congrArg₂ max (congrArg₂ (· + ·) (congrArg₂ (· + ·) e1 e2) e3) rfl

/-- The labels and the weights pass through the body unchanged (an identity recast). -/
theorem pay4_eq (x2 : Vec Ideal S1x8192 .f32) : k0_pay4 x2 = x2 := by
  unfold k0_pay4
  exact shapeCast_self x2 _
theorem pay5_eq (x3 : Vec Ideal S1x8192 .f32) : k0_pay5 x3 = x3 := by
  unfold k0_pay5
  exact shapeCast_self x3 _

/-- The logit of lane `l`: the second layer (its weights contracted against the hidden row of lane `l`) plus its bias. -/
theorem pay3_apply (x0 x1 : Vec Ideal S8192x128 .bf16) (x4 x5 : Vec Ideal S128x128 .bf16) (x6 : Vec Ideal S1x128 .f32)
    (x7 : Vec Ideal S1x128 .bf16) (x8 : Vec Ideal S1x1 .f32) (l : Fin 8192) :
    k0_pay3 x0 x1 x4 x5 x6 x7 x8 (ix2 (0 : Fin 1) l)
      = (∑ d : Fin 128, x7 (ix2 (0 : Fin 1) d)
          * max (((∑ k : Fin 128, x0 (ix2 l k) * x4 (ix2 k d)) + ∑ k : Fin 128, x1 (ix2 l k) * x5 (ix2 k d))
              + x6 (ix2 (0 : Fin 1) d)) LinkLoss.zeroLit)
        + x8 (ix2 (0 : Fin 1) (0 : Fin 1)) := by
  unfold k0_pay3
  simp only [shapeCast_self]
  refine congrArg₂ (· + ·) ?_ (Gcn.Lib.broadcastTo_a1_ab_apply (a := 1) (b := 8192) x8 broadcasts_S1x1_S1x8192 (0 : Fin 1) l)
  refine (LinkLoss.transposed_matmul_zero_apply (M := 1) (K := 128) (N := 8192) x7 _ none (0 : Fin 1) l).trans ?_
  exact Finset.sum_congr rfl fun d _ => congrArg (x7 (ix2 (0 : Fin 1) d) * ·) (hidden_apply x0 x1 x4 x5 x6 l d)

/-- The absolute logit of lane `l`, spelt as the larger of the logit and its negative. -/
theorem pay6_apply (x0 x1 : Vec Ideal S8192x128 .bf16) (x4 x5 : Vec Ideal S128x128 .bf16) (x6 : Vec Ideal S1x128 .f32)
    (x7 : Vec Ideal S1x128 .bf16) (x8 : Vec Ideal S1x1 .f32) (i : S1x8192.Idx) :
    k0_pay6 x0 x1 x4 x5 x6 x7 x8 i = max (k0_pay3 x0 x1 x4 x5 x6 x7 x8 i) (-(k0_pay3 x0 x1 x4 x5 x6 x7 x8 i)) := rfl

/-- The block has one element, so every index of a one-element shape is the zero index. -/
theorem idx1_eq (i : S1.Idx) : i = ix1 (0 : Fin 1) :=
  funext fun a => Fin.ext (by match a with | ⟨0, _⟩ => exact Nat.lt_one_iff.mp (i 0).isLt)

/-- The stored element: the carried value plus the sum over the 8192 lanes of the body's term. -/
theorem pay1_apply (z y w a : FVec Ideal S1x8192 .f32) (acc : Vec Ideal S1x1x1 .f32) (j : S1x1x1.Idx) :
    k0_pay1 z y w a acc j
      = acc j + ∑ l : Fin 8192, LinkLoss.kTerm (y (ix2 (0 : Fin 1) l)) (z (ix2 (0 : Fin 1) l)) (a (ix2 (0 : Fin 1) l))
          (w (ix2 (0 : Fin 1) l)) := by
  unfold k0_pay1
  dsimp only
  refine congrArg₂ (· + ·) (congrFun (shapeCast_self acc _) j) ?_
  refine (shapeCast_addUnit_apply ![1, 1] _ _ j).trans ?_
  refine (shapeCast_addUnit_apply ![1] _ _ _).trans ?_
  rw [idx1_eq (fun a : Fin 1 => (fun b : Fin 2 => j b.succ) a.succ)]
  refine (Gcn.Lib.rowSum_apply (a := 1) (b := 8192) _ reduces_S1x8192_S1 (.inl rfl) rfl (0 : Fin 1)).trans ?_
  rfl

end Cert.KernelIdeal.KValue
end
-- ==== Proof.KSum.lean ====
/-
  The running sum in closed form.

  One grid point adds to the carried element the sum, over its 8192 lanes, of the body's term of the lane's label,
  logit, absolute logit and weight: the point's lane sum. The chain of the 37 points of a core therefore holds,
  after point `n`, zero plus the lane sums of the points from the core's first point up to `n`: the points
  `37 · (n / 37), …, n`.
-/
import proofs.«145935_j4123168604526_2_alg».proof.Proof.KChain
import proofs.«145935_j4123168604526_2_alg».proof.Proof.KPayload

noncomputable section
open Idealize.ShloMosaic Idealize.ShloMosaic.TcCoe Idealize.SL.Sem Idealize.ShloMosaic.ValueIdx

namespace Cert.KernelIdeal.KValue
open Cert.KernelIdeal Cert.KernelIdeal.Gen

/-- The lane sum of a point, as a function of its nine input blocks. -/
def laneSumOf (x0 x1 : Vec Ideal S8192x128 .bf16) (x2 x3 : Vec Ideal S1x8192 .f32) (x4 x5 : Vec Ideal S128x128 .bf16)
    (x6 : Vec Ideal S1x128 .f32) (x7 : Vec Ideal S1x128 .bf16) (x8 : Vec Ideal S1x1 .f32) : EReal :=
  ∑ l : Fin 8192, LinkLoss.kTerm (x2 (ix2 (0 : Fin 1) l)) (k0_pay3 x0 x1 x4 x5 x6 x7 x8 (ix2 (0 : Fin 1) l))
    (k0_pay6 x0 x1 x4 x5 x6 x7 x8 (ix2 (0 : Fin 1) l)) (x3 (ix2 (0 : Fin 1) l))

/-- One point's store: the carried element plus the point's lane sum. -/
theorem step_apply (x0 x1 : Vec Ideal S8192x128 .bf16) (x2 x3 : Vec Ideal S1x8192 .f32) (x4 x5 : Vec Ideal S128x128 .bf16)
    (x6 : Vec Ideal S1x128 .f32) (x7 : Vec Ideal S1x128 .bf16) (x8 : Vec Ideal S1x1 .f32) (acc : Vec Ideal S1x1x1 .f32)
    (j : S1x1x1.Idx) :
    step x0 x1 x2 x3 x4 x5 x6 x7 x8 acc j = acc j + laneSumOf x0 x1 x2 x3 x4 x5 x6 x7 x8 := by
  unfold step laneSumOf
  rw [pay1_apply, pay4_eq, pay5_eq]

variable (m : (ℓ : Loc nD τ sig) → Buf (Elt Ideal) ℓ)

/-- The lane sum of point `t`. -/
def laneSum (c : Dev nD) (t : Fin cfg0.N) : EReal :=
  laneSumOf (iblk m c 0 t) (iblk m c 1 t) (iblk m c 2 t) (iblk m c 3 t) (iblk m c 4 t) (iblk m c 5 t) (iblk m c 6 t)
    (iblk m c 7 t) (iblk m c 8 t)

/-- The same over all naturals: zero beyond the grid. -/
def laneSumN (c : Dev nD) (i : ℕ) : EReal := if h : i < cfg0.N then laneSum m c ⟨i, h⟩ else 0

theorem stepAt_apply (c : Dev nD) (t : Fin cfg0.N) (acc : Vec Ideal S1x1x1 .f32) (j : S1x1x1.Idx) :
    stepAt m c t acc j = acc j + laneSum m c t :=
  step_apply (iblk m c 0 t) (iblk m c 1 t) (iblk m c 2 t) (iblk m c 3 t) (iblk m c 4 t) (iblk m c 5 t) (iblk m c 6 t)
    (iblk m c 7 t) (iblk m c 8 t) acc j

/-- After point `n` the block's element is zero plus the lane sums of the points of `n`'s core up to `n`. -/
theorem chain_apply (c : Dev nD) : ∀ (n : ℕ) (h : n < cfg0.N) (j : S1x1x1.Idx),
    chain m c n h j = LinkLoss.zeroLit + ∑ i ∈ Finset.Ico (37 * (n / 37)) (n + 1), laneSumN m c i
  | 0, h, j => by
    show stepAt m c ⟨0, h⟩ (k0_pay2 (F := Ideal)) j = _
    rw [stepAt_apply]
    have e : (37 * (0 / 37)) = 0 := by omega
    rw [e, Finset.sum_Ico_succ_top (le_refl 0), Finset.Ico_self, Finset.sum_empty, zero_add, laneSumN, dif_pos h]
    rfl
  | n + 1, h, j => by
    unfold chain
    by_cases h0 : (n + 1) % 37 = 0
    · rw [if_pos h0, stepAt_apply]
      have e : 37 * ((n + 1) / 37) = n + 1 := by omega
      rw [e, Finset.sum_Ico_succ_top (le_refl (n + 1)), Finset.Ico_self, Finset.sum_empty, zero_add, laneSumN, dif_pos h]
      rfl
    · rw [if_neg h0, stepAt_apply, chain_apply c n (Nat.lt_of_succ_lt h) j]
      have e : 37 * ((n + 1) / 37) = 37 * (n / 37) := by omega
      rw [e, Finset.sum_Ico_succ_top (by omega : 37 * (n / 37) ≤ n + 1), laneSumN, dif_pos h, add_assoc]

end Cert.KernelIdeal.KValue
end
-- ==== Proof.KFlush.lean ====
/-
  The array of per-core sums after the run.

  The output is a 2 × 1 × 1 array, one element per core. Core `k`'s 37 points share the one-element block at
  index `(k, 0, 0)`; the block is written back once, after the core's last point (the points `≡ 36 (mod 37)`), when
  it holds zero plus the lane sums of all 37 points of the core. The two write-backs cover the array, so after the run
  entry `(k, 0, 0)` is zero plus the lane sums of the points `37k, …, 37k + 36`.
-/
import proofs.«145935_j4123168604526_2_alg».proof.Proof.KSum
import Idealize.ShloMosaic.Lib.Pipeline.Value

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen

variable (m : (ℓ : Loc nD τ sig) → Buf (Elt Ideal) ℓ)

/-- The per-core sums: entry `(k, 0, 0)` is zero plus the lane sums of core `k`'s 37 points. -/
def coreSums (c : Dev nD) : S2x1x1.Idx → EReal :=
  fun i => LinkLoss.zeroLit + ∑ n ∈ Finset.Ico (37 * (i 0).val) (37 * (i 0).val + 37), laneSumN m c n

/-- The output block of point `t` is the block `(t / 37, 0, 0)`: decided once over the grid. -/
theorem idx_facts9 : ∀ t : Fin cfg0.N, win0_9.index t (0 : Fin 3) = t.val / 37 ∧ win0_9.index t (1 : Fin 3) = 0
    ∧ win0_9.index t (2 : Fin 3) = 0 :=
  (by decide +kernel : ∀ t : Fin grid0.N, win0_9.index t (0 : Fin 3) = t.val / 37 ∧ win0_9.index t (1 : Fin 3) = 0
    ∧ win0_9.index t (2 : Fin 3) = 0)

/-- What a core's last point writes back is that core's block of the per-core sums. -/
theorem flushed_eq (c : Dev nD) (t : Fin cfg0.N) (hf : (cfg0.win 9).flush t = true) :
    (dats m 0 c).flushed 9 t = ((cfg0.win 9).blk t).view.read (Elt Ideal) (coreSums m c) := by
  have h36 : t.val % 37 = 36 := (flush0_9 t).mp hf
  show (cfg0.win 9).cut (grid0.coords t) ((dats m 0 c).after 9 t) = _
  rw [after0_9, outsAt_eq]
  obtain ⟨e0, e1, e2⟩ := idx_facts9 t
  funext j
  show chain m c t.val t.isLt j = coreSums m c (((cfg0.win 9).blk t).view.emb j)
  rw [chain_apply]
  unfold coreSums
  have hemb : ((((cfg0.win 9).blk t).view.emb j) 0).val = t.val / 37 := by
    show win0_9.index t (0 : Fin 3) * 1 + 1 * (j 0).val = _
    have hj : (j 0).val < 1 := (j 0).isLt
    omega
  rw [hemb]
  have e : t.val + 1 = 37 * (t.val / 37) + 37 := by omega
  rw [e]

/-- An index of the array is in point `t`'s block iff each coordinate is in the block's range on its axis. -/
theorem mem_blk9 (t : Fin cfg0.N) (i : S2x1x1.Idx) :
    i ∈ ((cfg0.win 9).blk t).view.set ↔ ∀ a : Fin 3, win0_9.index t a * S1x1x1.size a ≤ (i a).val
      ∧ (i a).val < win0_9.index t a * S1x1x1.size a + S1x1x1.size a := by
  show i ∈ ((View.whole main_v37).slice (win0_9.rect t)).set ↔ _
  rw [View.set_slice_whole, Rect.mem_set_unit]
  exact Iff.rfl

/-- After the run the output array is the per-core sums: entry `(k, 0, 0)` is covered by point `37k + 36`. -/
theorem final9 (c : Dev nD) : (dats m 0 c).arrAt 9 cfg0.N = coreSums m c :=
  (dats m 0 c).arrAt_eq_of_cover 9 (coreSums m c) (flushed_eq m c) fun i => by
    have hN : cfg0.N = 74 := N_0
    have hi0 : (i 0).val < 2 := (i 0).isLt
    have hi1 : (i 1).val < 1 := (i 1).isLt
    have hi2 : (i 2).val < 1 := (i 2).isLt
    have ht : 37 * (i 0).val + 36 < cfg0.N := by omega
    refine ⟨⟨37 * (i 0).val + 36, ht⟩, (flush0_9 _).mpr (by show (37 * (i 0).val + 36) % 37 = 36; omega), ?_⟩
    rw [mem_blk9]
    obtain ⟨e0, e1, e2⟩ := idx_facts9 ⟨37 * (i 0).val + 36, ht⟩
    have e0' : win0_9.index ⟨37 * (i 0).val + 36, ht⟩ (0 : Fin 3) = (i 0).val := by rw [e0]; show (37 * (i 0).val + 36) / 37 = _; omega
    intro a
    match a with
    | ⟨0, _⟩ =>
      show win0_9.index ⟨37 * (i 0).val + 36, ht⟩ (0 : Fin 3) * 1 ≤ (i 0).val
        ∧ (i 0).val < win0_9.index ⟨37 * (i 0).val + 36, ht⟩ (0 : Fin 3) * 1 + 1
      rw [e0']; omega
    | ⟨1, _⟩ =>
      show win0_9.index ⟨37 * (i 0).val + 36, ht⟩ (1 : Fin 3) * 1 ≤ (i 1).val
        ∧ (i 1).val < win0_9.index ⟨37 * (i 0).val + 36, ht⟩ (1 : Fin 3) * 1 + 1
      rw [e1]; omega
    | ⟨2, _⟩ =>
      show win0_9.index ⟨37 * (i 0).val + 36, ht⟩ (2 : Fin 3) * 1 ≤ (i 2).val
        ∧ (i 2).val < win0_9.index ⟨37 * (i 0).val + 36, ht⟩ (2 : Fin 3) * 1 + 1
      rw [e2]; omega

end Cert.KernelIdeal.KValue
end
-- ==== Proof.KTail.lean ====
/-
  The kernel's result: the host tail over the per-core sums, and the run re-posted with the result named.

  After the region the host adds the two per-core sums (a reduction of the 2 × 1 × 1 array to a scalar, started from
  the zero literal) and divides by the literal 600000. With each per-core sum being zero plus its 37 lane sums, and
  the zero literal being the extended real 0, the result is `(0 + ∑ over the 74 points of the lane sums) / 600000`.
-/
import proofs.«145935_j4123168604526_2_alg».proof.Proof.KFlush
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen

variable (m : (ℓ : Loc nD τ sig) → Buf (Elt Ideal) ℓ) (ρ : Dev nD → PrngReg)

/-- A sum over the 2 × 1 × 1 array's indices is the sum over its first coordinate. -/
theorem sum_idx211 {M : Type*} [AddCommMonoid M] (f : (⟨3, ![2, 1, 1]⟩ : Shape).Idx → M) :
    ∑ i, f i = ∑ k : Fin 2, f (ix3 k (0 : Fin 1) (0 : Fin 1)) := by
  refine (Fintype.sum_equiv (⟨fun k => ix3 k (0 : Fin 1) (0 : Fin 1), fun i => i 0, fun _ => rfl, fun i => ?_⟩ :
    Fin 2 ≃ (⟨3, ![2, 1, 1]⟩ : Shape).Idx) _ _ fun _ => rfl).symm
  have h1 : i 1 = (0 : Fin 1) := Fin.ext (Nat.lt_one_iff.mp (i 1).isLt)
  have h2 : i 2 = (0 : Fin 1) := Fin.ext (Nat.lt_one_iff.mp (i 2).isLt)
  rw [eq_ix3 i, h1, h2]
  rfl

/-- The host tail applied to the output array as the run leaves it. -/
theorem tail_eq (c : Dev nD) :
    Pipeline.afterTail₀ cfgs (dats m) 0 (V0 m) [hostOps1] c main_v39
      = (Host.divf (F := Ideal) (Host.reduceAdd (F := Ideal) (coreSums m c) (constant (F := Ideal) S_ .f32 0x00000000#32)
            reducesTo_S2x1x1_S_d0_1_2 h_S_) (constant (F := Ideal) S_ .f32 0x49127C00#32)
          : Buf (Elt Ideal) ((c.tc : Thread nD τ).loc main_v39)) := by
  unfold Pipeline.afterTail₀
  show StableHlo.after hostOps1 _ (Proc.devRef .tc main_v39) = _
  after_results
  exact congrArg (fun a => (Host.divf (F := Ideal) (Host.reduceAdd (F := Ideal) a (constant (F := Ideal) S_ .f32 0x00000000#32)
      reducesTo_S2x1x1_S_d0_1_2 h_S_) (constant (F := Ideal) S_ .f32 0x49127C00#32)
      : Buf (Elt Ideal) ((c.tc : Thread nD τ).loc main_v39)))
    ((Pipeline.withArrays_arr spec0 launch0.win.arr_inj c _ _ 9).trans (final9 m c))

/-- The kernel's result on core `c`. -/
def kResult (c : Dev nD) : EReal :=
  Ideal.div (LinkLoss.zeroLit + ∑ n ∈ Finset.range 74, laneSumN m c n) LinkLoss.countLit

/-- The two per-core sums together are the lane sums of all 74 points. -/
theorem coreSums_total (c : Dev nD) : ∑ i, coreSums m c i = ∑ n ∈ Finset.range 74, laneSumN m c n := by
  rw [show (∑ i, coreSums m c i) = ∑ k : Fin 2, coreSums m c (ix3 k (0 : Fin 1) (0 : Fin 1)) from sum_idx211 _, Fin.sum_univ_two]
  unfold coreSums
  show (LinkLoss.zeroLit + ∑ n ∈ Finset.Ico (37 * 0) (37 * 0 + 37), laneSumN m c n)
    + (LinkLoss.zeroLit + ∑ n ∈ Finset.Ico (37 * 1) (37 * 1 + 37), laneSumN m c n) = _
  rw [show LinkLoss.zeroLit = (0 : EReal) from Ideal.ofBits_zero_f32, zero_add, zero_add,
    Finset.sum_Ico_consecutive _ (by norm_num) (by norm_num), Finset.range_eq_Ico]

theorem result_eq (c : Dev nD) :
    Pipeline.afterTail₀ cfgs (dats m) 0 (V0 m) [hostOps1] c main_v39 = fun _ => kResult m c := by
  rw [tail_eq]
  funext i
  show Ideal.div (Ideal.hostReduceAdd reducesTo_S2x1x1_S_d0_1_2 (coreSums m c) _ i) _ = _
  rw [Ideal.hostReduceAdd_total reducesTo_S2x1x1_S_d0_1_2 (fun b => b.elim0) (coreSums m c) _ i, coreSums_total]
  rfl

/-- THE KERNEL'S RUN with its result named: every weakly fair execution terminates with the result at `kResult` and
    the seven argument arrays unchanged. -/
theorem run : θ_run defs (onTc (τ := τ) (main (F := Ideal))) ⟨m, fun _ => 0, ρ⟩ (fun r => ∀ c : Dev nD,
      r.2.mem ((c.tc : Thread nD τ).loc main_v39) = (fun _ => kResult m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v39 (Pipeline.mem_restRefs_of main_v39 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue
end
-- ==== Proof.LossAlgebra.lean ====
/-
  The two arrangements of one edge's loss term agree on real numbers.

  The reference's term is `y · log σ(z) + (1 - y) · log σ(-z)` with `log σ(u) = -(max (-u) 0 + log (1 + exp (-|u|)))`;
  the kernel's is `(0 - (y · (min z 0 - L) + (1 - y) · (min (-z) 0 - L))) · w` with `L = log (1 + exp (-|z|))`. Since
  `min z 0 = -max (-z) 0` and `|-z| = |z|`, on real `y`, `z`, `w` the kernel's term is `w` times minus the
  reference's. On the extended reals this needs the arguments to be real: the product with a weight, the difference
  of the minimum and the logarithm, and the negation of a sum are not exact at the infinities. The float literals
  0, 1 and 600000 are read here, once, as the numbers their patterns denote.
-/
import proofs.«145935_j4123168604526_2_alg».proof.Proof.KSpec

noncomputable section

namespace LinkLoss

open Idealize.ShloMosaic

/-! ## The literals -/

theorem zeroLit_eq : zeroLit = 0 := Ideal.ofBits_zero_f32

theorem oneLit_eq : oneLit = ((1 : ℝ) : EReal) := by
  show Ideal.ofBits .f32 0x3F800000#32 = _
  simp [Ideal.ofBits, Ideal.ieee, -EReal.coe_mul]; norm_num

theorem countLit_eq : countLit = ((600000 : ℝ) : EReal) := by
  show Ideal.ofBits .f32 0x49127C00#32 = _
  simp [Ideal.ofBits, Ideal.ieee, -EReal.coe_mul]; norm_num

/-! ## Real numbers inside the extended reals -/

/-- A finite sum of reals, seen in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger and the smaller of two reals, seen in the extended reals. -/
theorem emax (x y : ℝ) : max (x : EReal) (y : EReal) = ((max x y : ℝ) : EReal) :=
  (EReal.coe_strictMono.monotone.map_max).symm
theorem emin (x y : ℝ) : min (x : EReal) (y : EReal) = ((min x y : ℝ) : EReal) :=
  (EReal.coe_strictMono.monotone.map_min).symm

/-- Being a real number. -/
def IsReal (a : EReal) : Prop := ∃ r : ℝ, a = (r : EReal)

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  obtain ⟨x, rfl⟩ := ha; obtain ⟨y, rfl⟩ := hb; exact ⟨Max.max x y, emax x y⟩
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem isReal_zeroLit : IsReal zeroLit := ⟨0, by rw [zeroLit_eq]; rfl⟩

/-! ## The terms on real arguments -/

/-- `softplus` on the reals. -/
def spR (v : ℝ) : ℝ := max v 0 + Real.log (1 + Real.exp (-(max v (-v))))

theorem log1p_exp_coe (a : ℝ) : Ideal.log1p (Ideal.exp ((a : ℝ) : EReal)) = ((Real.log (1 + Real.exp a) : ℝ) : EReal) := by
  show Ideal.log (1 + ((Real.exp a : ℝ) : EReal)) = _
  rw [show (1 : EReal) + ((Real.exp a : ℝ) : EReal) = ((1 + Real.exp a : ℝ) : EReal) by rw [EReal.coe_add, EReal.coe_one],
    Ideal.log_coe, if_neg (not_le.mpr (by positivity))]

theorem softplus_coe (v : ℝ) : softplus (v : EReal) = ((spR v : ℝ) : EReal) := by
  simp only [softplus, spR, zeroLit_eq, ← EReal.coe_zero, ← EReal.coe_sub, sub_zero, ← EReal.coe_neg, emax, log1p_exp_coe,
    ← EReal.coe_add]

theorem logSigmoid_coe (u : ℝ) : logSigmoid (u : EReal) = ((-(spR (-u)) : ℝ) : EReal) := by
  simp only [logSigmoid, ← EReal.coe_neg, softplus_coe]

/-- The reference's term on the reals. -/
def termR (y z : ℝ) : ℝ := y * (-(spR (-z))) + (1 - y) * (-(spR (-(-z))))

theorem term_coe (y z : ℝ) : term (y : EReal) (z : EReal) = ((termR y z : ℝ) : EReal) := by
  simp only [term, termR, oneLit_eq, ← EReal.coe_neg, logSigmoid_coe, ← EReal.coe_sub, ← EReal.coe_mul, ← EReal.coe_add]

/-- The kernel's term on the reals is the weight times minus the reference's. -/
theorem kTerm_coe (y z w : ℝ) :
    kTerm (y : EReal) (z : EReal) (max (z : EReal) (-(z : EReal))) (w : EReal) = ((w * -(termR y z) : ℝ) : EReal) := by
  have h1 : min z 0 = -(max (-z) 0) := by have := max_neg_neg z 0; rw [neg_zero] at this; linarith
  have h2 : min (0 - z) 0 = -(max z 0) := by
    have := max_neg_neg (-z) 0; rw [neg_neg, neg_zero] at this; rw [zero_sub]; linarith
  have h3 : max (-z) (-(-z)) = max z (-z) := by rw [neg_neg, max_comm]
  have h4 : max (-(-z)) (-(-(-z))) = max z (-z) := by rw [neg_neg]
  have hR : (0 - (y * (min z 0 - Real.log (1 + Real.exp (0 - max z (-z))))
      + (1 - y) * (min (0 - z) 0 - Real.log (1 + Real.exp (0 - max z (-z)))))) * w = w * -(termR y z) := by
    unfold termR spR
    rw [h1, h2, h3, h4, neg_neg, zero_sub]
    ring_nf
  rw [← hR]
  simp only [kTerm, zeroLit_eq, oneLit_eq, ← EReal.coe_zero, ← EReal.coe_neg, emax, emin, ← EReal.coe_sub, log1p_exp_coe,
    ← EReal.coe_mul, ← EReal.coe_add]

/-! ## Regrouping a sum by blocks, and the closing line -/

/-- A sum over `N` consecutive blocks of `B` terms is the sum over the first `B · N` naturals. -/
theorem sum_blocks {M : Type*} [AddCommMonoid M] (B : ℕ) (g : ℕ → M) :
    ∀ N : ℕ, ∑ n ∈ Finset.range N, ∑ l ∈ Finset.range B, g (B * n + l) = ∑ e ∈ Finset.range (B * N), g e
  | 0 => by simp
  | N + 1 => by rw [Finset.sum_range_succ, sum_blocks B g N, Nat.mul_succ, Finset.sum_range_add]

/-- Terms that vanish from `K` on do not count. -/
theorem sum_range_of_zero_tail {M : Type*} [AddCommMonoid M] (g : ℕ → M) (K P : ℕ) (hz : ∀ e, K ≤ e → g e = 0) :
    ∑ e ∈ Finset.range (K + P), g e = ∑ e ∈ Finset.range K, g e := by
  rw [Finset.sum_range_add, Finset.sum_eq_zero (fun x _ => hz (K + x) (Nat.le_add_right K x)), add_zero]

/-- THE CLOSING LINE: dividing the sum of the negated real terms by the count is minus the mean of the terms. -/
theorem mean_neg {ι : Type*} (s : Finset ι) (f : ι → ℝ) :
    Ideal.div (zeroLit + ∑ i ∈ s, ((-(f i) : ℝ) : EReal)) countLit
      = -(Ideal.div (zeroLit + ∑ i ∈ s, (f i : EReal)) countLit) := by
  rw [countLit_eq, Ideal.div_coe (by norm_num : (600000 : ℝ) ≠ 0), Ideal.div_coe (by norm_num : (600000 : ℝ) ≠ 0),
    zeroLit_eq, zero_add, zero_add, coe_sum, coe_sum, ← EReal.coe_mul, ← EReal.coe_mul, ← EReal.coe_neg,
    Finset.sum_neg_distrib, neg_mul]

end LinkLoss

end
-- ==== Proof.PaddedEdges.lean ====
/-
  The padded edges, as the kernel sees them.

  The kernel pads the 600000 edges to 606208 = 74 · 8192: a padded edge `e ≥ 600000` has the zero word for both
  endpoints (so it gathers the table's row 0 twice), the label 0 and the weight 0; a real edge has weight 1. The
  kernel computes a logit for every padded edge, with the first layer split into its two halves (source row against
  the first 128 columns of `W1`, target row against the last 128) and the second layer's product written weights
  first. For a real edge that is the reference's logit: the 256-term sum is the two 128-term sums, and the product
  commutes. When the arguments are real so is every padded logit.
-/
import proofs.«145935_j4123168604526_2_alg».proof.Proof.LossAlgebra

noncomputable section

namespace LinkLoss

open Idealize.ShloMosaic Idealize.ShloMosaic.ValueIdx

section
variable (x : (⟨2, ![50000, 128]⟩ : Shape).Idx → EReal) (W1 : (⟨2, ![128, 256]⟩ : Shape).Idx → EReal)
  (b1 : (⟨1, ![128]⟩ : Shape).Idx → EReal) (W2 : (⟨2, ![1, 128]⟩ : Shape).Idx → EReal)
  (b2 : (⟨1, ![1]⟩ : Shape).Idx → EReal) (lab : (⟨1, ![600000]⟩ : Shape).Idx → EReal)
  (pairs : (⟨2, ![2, 600000]⟩ : Shape).Idx → BitVec 32)

/-- Endpoint `s` of padded edge `e`: the edge's index word, or the zero word beyond the 600000 edges. -/
def padWord (s : Fin 2) (e : ℕ) : BitVec 32 := if h : e < 600000 then pairs (ix2 s ⟨e, h⟩) else 0#32

/-- The first 128 columns and the last 128 columns of a row of `W1`. -/
def colA (k : Fin 128) : Fin 256 := ⟨k.val, Nat.lt_of_lt_of_le k.isLt (by decide)⟩
def colB (k : Fin 128) : Fin 256 := ⟨128 + k.val, by have := k.isLt; omega⟩

/-- Hidden value `d` of padded edge `e`, the first layer in two halves. -/
def padHidden (e : ℕ) (d : Fin 128) : EReal :=
  max (((∑ k : Fin 128, x (ix2 (node (padWord pairs 0 e)) k) * W1 (ix2 d (colA k)))
      + ∑ k : Fin 128, x (ix2 (node (padWord pairs 1 e)) k) * W1 (ix2 d (colB k))) + b1 (ix1 d)) zeroLit

/-- The logit of padded edge `e`, the second layer's product written weights first. -/
def padLogit (e : ℕ) : EReal :=
  (∑ d : Fin 128, W2 (ix2 (0 : Fin 1) d) * padHidden x W1 b1 pairs e d) + b2 (ix1 (0 : Fin 1))

/-- The 256 features of a real edge, summed against a row of `W1`, are the two halves. -/
theorem feat_sum (e : Fin 600000) (d : Fin 128) :
    ∑ k : Fin 256, feat x pairs e k * W1 (ix2 d k)
      = (∑ k : Fin 128, x (ix2 (node (padWord pairs 0 e.val)) k) * W1 (ix2 d (colA k)))
        + ∑ k : Fin 128, x (ix2 (node (padWord pairs 1 e.val)) k) * W1 (ix2 d (colB k)) := by
  have hw : ∀ s : Fin 2, padWord pairs s e.val = pairs (ix2 s e) := fun s => by
    unfold padWord; rw [dif_pos e.isLt]
  rw [hw 0, hw 1]
  rw [show (∑ k : Fin 256, feat x pairs e k * W1 (ix2 d k))
      = ∑ k : Fin (128 + 128), feat x pairs e k * W1 (ix2 d k) from rfl, Fin.sum_univ_add]
  refine congrArg₂ (· + ·) (Finset.sum_congr rfl fun k _ => ?_) (Finset.sum_congr rfl fun k _ => ?_)
  · have hk : (Fin.castAdd 128 k : Fin (128 + 128)).val < 128 := k.isLt
    show feat x pairs e (Fin.castAdd 128 k) * _ = _
    unfold feat
    rw [dif_pos hk]
    rfl
  · have hk : ¬ (Fin.natAdd 128 k : Fin (128 + 128)).val < 128 := by show ¬ (128 + k.val < 128); omega
    show feat x pairs e (Fin.natAdd 128 k) * _ = _
    unfold feat
    rw [dif_neg hk]
    have e1 : (⟨(Fin.natAdd 128 k : Fin (128 + 128)).val - 128, by show 128 + k.val - 128 < 128; have := k.isLt; omega⟩ : Fin 128) = k :=
      Fin.ext (by show 128 + k.val - 128 = k.val; omega)
    rw [e1]
    rfl

/-- For a real edge the padded logit is the reference's logit. -/
theorem padLogit_eq_logit (e : Fin 600000) : padLogit x W1 b1 W2 b2 pairs e.val = logit x W1 b1 W2 b2 pairs e := by
  unfold padLogit logit
  refine congrArg (· + b2 (ix1 (0 : Fin 1))) (Finset.sum_congr rfl fun d _ => ?_)
  rw [mul_comm]
  refine congrArg (· * W2 (ix2 (0 : Fin 1) d)) ?_
  unfold padHidden hidden
  rw [feat_sum]

/-- With real arguments every padded logit is real. -/
theorem padLogit_real (hx : ∀ i, IsReal (x i)) (hW1 : ∀ i, IsReal (W1 i)) (hb1 : ∀ i, IsReal (b1 i))
    (hW2 : ∀ i, IsReal (W2 i)) (hb2 : ∀ i, IsReal (b2 i)) (e : ℕ) : IsReal (padLogit x W1 b1 W2 b2 pairs e) := by
  unfold padLogit
  refine IsReal.add (IsReal.sum _ _ fun d _ => (hW2 _).mul ?_) (hb2 _)
  unfold padHidden
  exact IsReal.max (((IsReal.sum _ _ fun k _ => (hx _).mul (hW1 _)).add (IsReal.sum _ _ fun k _ => (hx _).mul (hW1 _))).add
    (hb1 _)) isReal_zeroLit

end

end LinkLoss

end
-- ==== Proof.KEdge.lean ====
/-
  One lane of one grid point is one padded edge.

  Lane `l` of point `n` handles padded edge `e = 8192 · n + l`. When the point's nine blocks hold what the host
  staged for them (the two gathered rows of the edge's endpoints, its label and weight, the two halves of `W1`
  transposed, `b1`, `W2`, `b2`), the body's logit at the lane is the padded logit of `e`, and, the arguments being
  real, the body's term there is `-(the reference's term of e)` for a real edge and `0` for a padding edge. Summed
  over the 8192 lanes and the 74 points that is the sum over the first 606208 naturals, of which only the first
  600000 count.
-/
import proofs.«145935_j4123168604526_2_alg».proof.Proof.KPayload
import proofs.«145935_j4123168604526_2_alg».proof.Proof.PaddedEdges

noncomputable section
open Idealize.ShloMosaic Idealize.ShloMosaic.ValueIdx

namespace Cert.KernelIdeal.KValue
open Cert.KernelIdeal Cert.KernelIdeal.Gen LinkLoss

variable (x : (⟨2, ![50000, 128]⟩ : Shape).Idx → EReal) (W1 : (⟨2, ![128, 256]⟩ : Shape).Idx → EReal)
  (b1 : (⟨1, ![128]⟩ : Shape).Idx → EReal) (W2 : (⟨2, ![1, 128]⟩ : Shape).Idx → EReal)
  (b2 : (⟨1, ![1]⟩ : Shape).Idx → EReal) (lab : (⟨1, ![600000]⟩ : Shape).Idx → EReal)
  (pairs : (⟨2, ![2, 600000]⟩ : Shape).Idx → BitVec 32)

/-- What padded edge `e` contributes to the kernel's sum, given the real labels and the real padded logits. -/
def contrib (labR : Fin 600000 → ℝ) (zR : ℕ → ℝ) (e : ℕ) : EReal :=
  if h : e < 600000 then ((-(termR (labR ⟨e, h⟩) (zR e)) : ℝ) : EReal) else 0

section blocks
variable (x0 x1 : Vec Ideal S8192x128 .bf16) (x2 x3 : Vec Ideal S1x8192 .f32) (x4 x5 : Vec Ideal S128x128 .bf16)
  (x6 : Vec Ideal S1x128 .f32) (x7 : Vec Ideal S1x128 .bf16) (x8 : Vec Ideal S1x1 .f32) (n : ℕ)

/-- The body's logit at lane `l` of point `n` is the padded logit of edge `8192 · n + l`. -/
theorem pay3_pad
    (h0 : ∀ (r : Fin 8192) (k : Fin 128), x0 (ix2 r k) = x (ix2 (node (padWord pairs 0 (8192 * n + r.val))) k))
    (h1 : ∀ (r : Fin 8192) (k : Fin 128), x1 (ix2 r k) = x (ix2 (node (padWord pairs 1 (8192 * n + r.val))) k))
    (h4 : ∀ k d : Fin 128, x4 (ix2 k d) = W1 (ix2 d (colA k)))
    (h5 : ∀ k d : Fin 128, x5 (ix2 k d) = W1 (ix2 d (colB k)))
    (h6 : ∀ d : Fin 128, x6 (ix2 (0 : Fin 1) d) = b1 (ix1 d))
    (h7 : ∀ d : Fin 128, x7 (ix2 (0 : Fin 1) d) = W2 (ix2 (0 : Fin 1) d))
    (h8 : x8 (ix2 (0 : Fin 1) (0 : Fin 1)) = b2 (ix1 (0 : Fin 1))) (l : Fin 8192) :
    k0_pay3 x0 x1 x4 x5 x6 x7 x8 (ix2 (0 : Fin 1) l) = padLogit x W1 b1 W2 b2 pairs (8192 * n + l.val) := by
  rw [pay3_apply]
  unfold padLogit padHidden
  rw [h8]
  refine congrArg (· + b2 (ix1 (0 : Fin 1))) (Finset.sum_congr rfl fun d _ => ?_)
  rw [h7 d, h6 d]
  refine congrArg (fun s => W2 (ix2 (0 : Fin 1) d) * max (s + b1 (ix1 d)) zeroLit) ?_
  refine congrArg₂ (· + ·) (Finset.sum_congr rfl fun k _ => ?_) (Finset.sum_congr rfl fun k _ => ?_)
  · rw [h0 l k, h4 k d]
  · rw [h1 l k, h5 k d]

/-- The body's term at lane `l` of point `n` is the contribution of padded edge `8192 · n + l`. -/
theorem lane_term (labR : Fin 600000 → ℝ) (zR : ℕ → ℝ)
    (hlab : ∀ e : Fin 600000, lab (ix1 e) = ((labR e : ℝ) : EReal))
    (hz : ∀ e : ℕ, padLogit x W1 b1 W2 b2 pairs e = ((zR e : ℝ) : EReal))
    (h0 : ∀ (r : Fin 8192) (k : Fin 128), x0 (ix2 r k) = x (ix2 (node (padWord pairs 0 (8192 * n + r.val))) k))
    (h1 : ∀ (r : Fin 8192) (k : Fin 128), x1 (ix2 r k) = x (ix2 (node (padWord pairs 1 (8192 * n + r.val))) k))
    (h2 : ∀ l : Fin 8192, x2 (ix2 (0 : Fin 1) l)
      = if h : 8192 * n + l.val < 600000 then lab (ix1 ⟨8192 * n + l.val, h⟩) else ((0 : ℝ) : EReal))
    (h3 : ∀ l : Fin 8192, x3 (ix2 (0 : Fin 1) l)
      = if 8192 * n + l.val < 600000 then ((1 : ℝ) : EReal) else ((0 : ℝ) : EReal))
    (h4 : ∀ k d : Fin 128, x4 (ix2 k d) = W1 (ix2 d (colA k)))
    (h5 : ∀ k d : Fin 128, x5 (ix2 k d) = W1 (ix2 d (colB k)))
    (h6 : ∀ d : Fin 128, x6 (ix2 (0 : Fin 1) d) = b1 (ix1 d))
    (h7 : ∀ d : Fin 128, x7 (ix2 (0 : Fin 1) d) = W2 (ix2 (0 : Fin 1) d))
    (h8 : x8 (ix2 (0 : Fin 1) (0 : Fin 1)) = b2 (ix1 (0 : Fin 1))) (l : Fin 8192) :
    kTerm (x2 (ix2 (0 : Fin 1) l)) (k0_pay3 x0 x1 x4 x5 x6 x7 x8 (ix2 (0 : Fin 1) l))
        (k0_pay6 x0 x1 x4 x5 x6 x7 x8 (ix2 (0 : Fin 1) l)) (x3 (ix2 (0 : Fin 1) l))
      = contrib labR zR (8192 * n + l.val) := by
  rw [pay6_apply, pay3_pad x W1 b1 W2 b2 pairs x0 x1 x4 x5 x6 x7 x8 n h0 h1 h4 h5 h6 h7 h8 l, hz, h2 l, h3 l]
  unfold contrib
  by_cases h : 8192 * n + l.val < 600000
  · rw [dif_pos h, if_pos h, dif_pos h, hlab, kTerm_coe, one_mul]
  · rw [dif_neg h, if_neg h, dif_neg h, kTerm_coe, zero_mul, EReal.coe_zero]

/-- The lane sum of point `n`. -/
theorem laneSum_blocks (labR : Fin 600000 → ℝ) (zR : ℕ → ℝ)
    (hlab : ∀ e : Fin 600000, lab (ix1 e) = ((labR e : ℝ) : EReal))
    (hz : ∀ e : ℕ, padLogit x W1 b1 W2 b2 pairs e = ((zR e : ℝ) : EReal))
    (h0 : ∀ (r : Fin 8192) (k : Fin 128), x0 (ix2 r k) = x (ix2 (node (padWord pairs 0 (8192 * n + r.val))) k))
    (h1 : ∀ (r : Fin 8192) (k : Fin 128), x1 (ix2 r k) = x (ix2 (node (padWord pairs 1 (8192 * n + r.val))) k))
    (h2 : ∀ l : Fin 8192, x2 (ix2 (0 : Fin 1) l)
      = if h : 8192 * n + l.val < 600000 then lab (ix1 ⟨8192 * n + l.val, h⟩) else ((0 : ℝ) : EReal))
    (h3 : ∀ l : Fin 8192, x3 (ix2 (0 : Fin 1) l)
      = if 8192 * n + l.val < 600000 then ((1 : ℝ) : EReal) else ((0 : ℝ) : EReal))
    (h4 : ∀ k d : Fin 128, x4 (ix2 k d) = W1 (ix2 d (colA k)))
    (h5 : ∀ k d : Fin 128, x5 (ix2 k d) = W1 (ix2 d (colB k)))
    (h6 : ∀ d : Fin 128, x6 (ix2 (0 : Fin 1) d) = b1 (ix1 d))
    (h7 : ∀ d : Fin 128, x7 (ix2 (0 : Fin 1) d) = W2 (ix2 (0 : Fin 1) d))
    (h8 : x8 (ix2 (0 : Fin 1) (0 : Fin 1)) = b2 (ix1 (0 : Fin 1))) :
    (∑ l : Fin 8192, kTerm (x2 (ix2 (0 : Fin 1) l)) (k0_pay3 x0 x1 x4 x5 x6 x7 x8 (ix2 (0 : Fin 1) l))
        (k0_pay6 x0 x1 x4 x5 x6 x7 x8 (ix2 (0 : Fin 1) l)) (x3 (ix2 (0 : Fin 1) l)))
      = ∑ l ∈ Finset.range 8192, contrib labR zR (8192 * n + l) := by
  rw [Finset.sum_range]
  exact Finset.sum_congr rfl fun l _ =>
    lane_term x W1 b1 W2 b2 lab pairs x0 x1 x2 x3 x4 x5 x6 x7 x8 n labR zR hlab hz h0 h1 h2 h3 h4 h5 h6 h7 h8 l

end blocks

/-- All 74 · 8192 contributions are the 600000 real edges' negated terms. -/
theorem contrib_total (labR : Fin 600000 → ℝ) (zR : ℕ → ℝ) :
    ∑ n ∈ Finset.range 74, ∑ l ∈ Finset.range 8192, contrib labR zR (8192 * n + l)
      = ∑ e : Fin 600000, ((-(termR (labR e) (zR e.val)) : ℝ) : EReal) := by
  rw [sum_blocks 8192 (contrib labR zR) 74, show 8192 * 74 = 600000 + 6208 from rfl,
    sum_range_of_zero_tail (contrib labR zR) 600000 6208 (fun e he => by unfold contrib; rw [dif_neg (by omega)]),
    Finset.sum_range]
  exact Finset.sum_congr rfl fun e _ => by unfold contrib; rw [dif_pos e.isLt]

end Cert.KernelIdeal.KValue
end
-- ==== Proof.KFinite.lean ====
/-
  Finiteness of the float inputs, read back from the precondition.

  The precondition is the conjunction, over the six float argument arrays, of `all (|x| < +∞)`. An extended real
  whose absolute value `max x (-x)` is strictly below `+∞` is neither `⊤` nor `⊥`, hence the coercion of a real
  number. So under the precondition every entry of every float argument is a real number, which is what the laws of
  real arithmetic that fail at the infinities (distributing a product over a sum, cancelling) need.
-/
import proofs.«145935_j4123168604526_2_alg».proof.Defs
import Idealize.ShloMosaic.Lib.ReduceAll
import Idealize.ShloMosaic.Lib.ValueIdx

noncomputable section

namespace Cert.KernelIdeal.KFinite

open Idealize.ShloMosaic Idealize.SL.Sem

/-- The word `0x7F800000` (exponent all ones, significand zero, sign clear) denotes `+∞`. -/
theorem inf_word : Ideal.ofBits .f32 0x7F800000#32 = (⊤ : EReal) := by
  simp [Ideal.ofBits, Ideal.ieee]

/-- An extended real whose absolute value `max x (-x)` compares strictly below `+∞` is a real number:
    at `⊤` the maximum is `⊤`, at `⊥` it is `-⊥ = ⊤`, and `⊤ < ⊤` is false. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has exactly one index. -/
instance : Subsingleton Cert.Pre_finite_inputs.S_.Idx := ⟨fun a b => funext fun d => d.elim0⟩

/-- A conjunction of `i1` arrays that is 1 at an index has both conjuncts 1 there. -/
theorem andi_split {s : Shape} (a b : IVec s 1) (i : s.Idx) (h : andi a b i = 1#1) : a i = 1#1 ∧ b i = 1#1 :=
  IntOp.andi_eq_one.1 h

/-- `all (|x| < +∞)`, the conjunction over every index of the array, is 1 only if every entry of `x` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ValueIdx.ix0 = 1#1)
    (i : s.Idx) : ∃ r : ℝ, x i = (r : EReal) :=
  real_of_abs_lt (x i) (Host.reduce_andi_all _ init hr hu ValueIdx.ix0 e i)

variable [hPre_finite_inputs : Cert.Pre_finite_inputs.Facts]

/-- Under the precondition every entry of each of the six float argument arrays is a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have h := congrFun (hpre c) ValueIdx.ix0
  dsimp only [Cert.Pre_finite_inputs.fn, Cert.Pre_finite_inputs.fn_part1] at h
  obtain ⟨h, h5⟩ := andi_split _ _ _ h
  obtain ⟨h, h4⟩ := andi_split _ _ _ h
  obtain ⟨h, h3⟩ := andi_split _ _ _ h
  obtain ⟨h, h2⟩ := andi_split _ _ _ h
  obtain ⟨h0, h1⟩ := andi_split _ _ _ h
  exact ⟨real_of_all _ _ _ _ _ h0, real_of_all _ _ _ _ _ h1, real_of_all _ _ _ _ _ h2,
    real_of_all _ _ _ _ _ h3, real_of_all _ _ _ _ _ h4, real_of_all _ _ _ _ _ h5⟩

/-- Every entry of float argument 0 is a real number. -/
theorem real_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_of_pre m hpre c).1

/-- Every entry of float argument 1 is a real number. -/
theorem real_arg1 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (real_of_pre m hpre c).2.1

/-- Every entry of float argument 2 is a real number. -/
theorem real_arg2 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_of_pre m hpre c).2.2.1

/-- Every entry of float argument 3 is a real number. -/
theorem real_arg3 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (real_of_pre m hpre c).2.2.2.1

/-- Every entry of float argument 4 is a real number. -/
theorem real_arg4 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (real_of_pre m hpre c).2.2.2.2.1

/-- Every entry of float argument 5 is a real number. -/
theorem real_arg5 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (real_of_pre m hpre c).2.2.2.2.2

end Cert.KernelIdeal.KFinite

end
-- ==== Proof.KBridge.lean ====
/-
  The kernel's result is the loss.

  With every block entry read as a function of the arguments (the hypotheses `H0 … H8` below, one per input window,
  at every grid point) and every float argument entry a real number (from the precondition), the 74 lane sums are
  the contributions of the 606208 padded edges, of which the 600000 real ones contribute minus their reference
  terms and the padding contributes nothing; dividing by the count gives minus the mean: the loss.
-/
import proofs.«145935_j4123168604526_2_alg».proof.Proof.KTail
import proofs.«145935_j4123168604526_2_alg».proof.Proof.KEdge
import proofs.«145935_j4123168604526_2_alg».proof.Proof.KFinite

noncomputable section
open Idealize.ShloMosaic Idealize.ShloMosaic.TcCoe Idealize.SL.Sem Idealize.ShloMosaic.ValueIdx

namespace Cert.KernelIdeal.KValue
open Cert.KernelIdeal Cert.KernelIdeal.Gen LinkLoss

variable [hPre_finite_inputs : Cert.Pre_finite_inputs.Facts]
variable (m : (ℓ : Loc nD τ sig) → Buf (Elt Ideal) ℓ)

/-- The seven argument arrays on core `c`, at the shapes the specification is stated over. -/
abbrev aX (c : Dev nD) : (⟨2, ![50000, 128]⟩ : Shape).Idx → EReal := m ((c.tc : Thread nD τ).loc main_arg0)
abbrev aW1 (c : Dev nD) : (⟨2, ![128, 256]⟩ : Shape).Idx → EReal := m ((c.tc : Thread nD τ).loc main_arg1)
abbrev aB1 (c : Dev nD) : (⟨1, ![128]⟩ : Shape).Idx → EReal := m ((c.tc : Thread nD τ).loc main_arg2)
abbrev aW2 (c : Dev nD) : (⟨2, ![1, 128]⟩ : Shape).Idx → EReal := m ((c.tc : Thread nD τ).loc main_arg3)
abbrev aB2 (c : Dev nD) : (⟨1, ![1]⟩ : Shape).Idx → EReal := m ((c.tc : Thread nD τ).loc main_arg4)
abbrev aLab (c : Dev nD) : (⟨1, ![600000]⟩ : Shape).Idx → EReal := m ((c.tc : Thread nD τ).loc main_arg5)
abbrev aPairs (c : Dev nD) : (⟨2, ![2, 600000]⟩ : Shape).Idx → BitVec 32 := m ((c.tc : Thread nD τ).loc main_arg6)

theorem kResult_eq_loss_of_entries (hpre : Cert.Pre_KernelIdeal m) (c : Dev nD)
    (H0 : ∀ (t : Fin cfg0.N) (r : Fin 8192) (k : Fin 128), (iblk m c 0 t : Vec Ideal S8192x128 .bf16) (ix2 r k)
      = aX m c (ix2 (node (padWord (aPairs m c) 0 (8192 * t.val + r.val))) k))
    (H1 : ∀ (t : Fin cfg0.N) (r : Fin 8192) (k : Fin 128), (iblk m c 1 t : Vec Ideal S8192x128 .bf16) (ix2 r k)
      = aX m c (ix2 (node (padWord (aPairs m c) 1 (8192 * t.val + r.val))) k))
    (H2 : ∀ (t : Fin cfg0.N) (l : Fin 8192), (iblk m c 2 t : Vec Ideal S1x8192 .f32) (ix2 (0 : Fin 1) l)
      = if h : 8192 * t.val + l.val < 600000 then aLab m c (ix1 ⟨8192 * t.val + l.val, h⟩) else ((0 : ℝ) : EReal))
    (H3 : ∀ (t : Fin cfg0.N) (l : Fin 8192), (iblk m c 3 t : Vec Ideal S1x8192 .f32) (ix2 (0 : Fin 1) l)
      = if 8192 * t.val + l.val < 600000 then ((1 : ℝ) : EReal) else ((0 : ℝ) : EReal))
    (H4 : ∀ (t : Fin cfg0.N) (k d : Fin 128), (iblk m c 4 t : Vec Ideal S128x128 .bf16) (ix2 k d) = aW1 m c (ix2 d (colA k)))
    (H5 : ∀ (t : Fin cfg0.N) (k d : Fin 128), (iblk m c 5 t : Vec Ideal S128x128 .bf16) (ix2 k d) = aW1 m c (ix2 d (colB k)))
    (H6 : ∀ (t : Fin cfg0.N) (d : Fin 128), (iblk m c 6 t : Vec Ideal S1x128 .f32) (ix2 (0 : Fin 1) d) = aB1 m c (ix1 d))
    (H7 : ∀ (t : Fin cfg0.N) (d : Fin 128), (iblk m c 7 t : Vec Ideal S1x128 .bf16) (ix2 (0 : Fin 1) d)
      = aW2 m c (ix2 (0 : Fin 1) d))
    (H8 : ∀ t : Fin cfg0.N, (iblk m c 8 t : Vec Ideal S1x1 .f32) (ix2 (0 : Fin 1) (0 : Fin 1)) = aB2 m c (ix1 (0 : Fin 1))) :
    kResult m c = LinkLoss.loss (aX m c) (aW1 m c) (aB1 m c) (aW2 m c) (aB2 m c) (aLab m c) (aPairs m c) := by
  obtain ⟨hx, hW1, hb1, hW2, hb2, hlab⟩ := Cert.KernelIdeal.KFinite.real_of_pre m hpre c
  choose labR hlabR using fun e : Fin 600000 => hlab (ix1 e)
  choose zR hzR using padLogit_real (aX m c) (aW1 m c) (aB1 m c) (aW2 m c) (aB2 m c) (aPairs m c) hx hW1 hb1 hW2 hb2
  have hN : cfg0.N = 74 := N_0
  have htot : ∑ n ∈ Finset.range 74, laneSumN m c n
      = ∑ e : Fin 600000, ((-(termR (labR e) (zR e.val)) : ℝ) : EReal) := by
    rw [← contrib_total labR zR]
    refine Finset.sum_congr rfl fun n hn => ?_
    have hn' : n < cfg0.N := by rw [hN]; exact Finset.mem_range.mp hn
    unfold laneSumN
    rw [dif_pos hn']
    exact laneSum_blocks (aX m c) (aW1 m c) (aB1 m c) (aW2 m c) (aB2 m c) (aLab m c) (aPairs m c)
      (iblk m c 0 ⟨n, hn'⟩) (iblk m c 1 ⟨n, hn'⟩) (iblk m c 2 ⟨n, hn'⟩) (iblk m c 3 ⟨n, hn'⟩) (iblk m c 4 ⟨n, hn'⟩)
      (iblk m c 5 ⟨n, hn'⟩) (iblk m c 6 ⟨n, hn'⟩) (iblk m c 7 ⟨n, hn'⟩) (iblk m c 8 ⟨n, hn'⟩) n labR zR hlabR hzR
      (H0 ⟨n, hn'⟩) (H1 ⟨n, hn'⟩) (H2 ⟨n, hn'⟩) (H3 ⟨n, hn'⟩) (H4 ⟨n, hn'⟩) (H5 ⟨n, hn'⟩) (H6 ⟨n, hn'⟩) (H7 ⟨n, hn'⟩)
      (H8 ⟨n, hn'⟩)
  unfold kResult
  rw [htot, mean_neg]
  unfold loss
  refine congrArg (fun s => -(Ideal.div (zeroLit + s) countLit)) (Finset.sum_congr rfl fun e _ => ?_)
  have h1 : aLab m c (ix1 e) = ((labR e : ℝ) : EReal) := hlabR e
  rw [h1, ← padLogit_eq_logit, hzR, term_coe]

end Cert.KernelIdeal.KValue
end
-- ==== Proof.KInSmall.lean ====
/-
  THE RESIDENT INPUT BLOCKS OF THE KERNEL READ AT AN INDEX (the two halves of the first layer's weights, its bias,
  the second layer's weights and bias).

  Each of these five windows stages an array that the host program computes before the kernel is entered, and its
  one block is the whole array at every grid point. Two steps per window: the staged array as the host operations'
  composed term of the argument arrays (a slice of the first layer's weight matrix transposed and narrowed, a
  reshape of a bias, a narrowing of the second layer's weights), and that term read at an index, where at the ideal
  instance a narrowing is the identity. So the block entry (k, d) of the first weight window is W1 (d, k), of the
  second W1 (d, 128 + k); the bias windows read b1 (d), W2 (0, d) and b2 (0).
-/
import proofs.«145935_j4123168604526_2_alg».proof.Proof.Gen.KernelIdeal.Frame.Runs
import proofs.«145935_j4123168604526_2_alg».proof.Proof.Spec
import Idealize.ShloMosaic.Lib.Pipeline.Value
import Idealize.ShloMosaic.Lib.IdealHost
import Idealize.ShloMosaic.Lib.KernelVsHost
import Idealize.ShloMosaic.Lib.Tactic

noncomputable section

open Idealize.ShloMosaic Idealize.ShloMosaic.TcCoe Idealize.SL.Sem
open Idealize.ShloMosaic.ValueIdx

namespace Cert.KernelIdeal.KInputs

open Cert.KernelIdeal Cert.KernelIdeal.Gen

variable (m : (ℓ : Loc nD τ sig) → Buf (Elt Ideal) ℓ)

/-! ## The staged arrays as terms of the argument arrays -/

/-- The second layer's bias as a 1 × 1 array: a reshape of the argument. -/
theorem V_v36 (c : Dev nD) :
    @Eq (FVec Ideal S1x1 .f32) (Gen.V m c main_v36)
      (shapeCast S1x1 (m ((c : Thread nD τ).loc main_arg4) : FVec Ideal S1 .f32) shapeCasts_S1_S1x1) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  try rfl

/-- The first layer's bias as a 1 × 128 array: a reshape of the argument. -/
theorem V_v35 (c : Dev nD) :
    @Eq (FVec Ideal S1x128 .f32) (Gen.V m c main_v35)
      (shapeCast S1x128 (m ((c : Thread nD τ).loc main_arg2) : FVec Ideal S128 .f32) shapeCasts_S128_S1x128) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  try rfl

/-- The second layer's weights narrowed. -/
theorem V_v34 (c : Dev nD) :
    @Eq (FVec Ideal S1x128 .bf16) (Gen.V m c main_v34)
      (truncf .bf16 (m ((c : Thread nD τ).loc main_arg3) : FVec Ideal S1x128 .f32) bitsLt_bf16_f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  try rfl

/-- The first 128 columns of the first layer's weights, transposed and narrowed. -/
theorem V_v31 (c : Dev nD) :
    @Eq (FVec Ideal S128x128 .bf16) (Gen.V m c main_v31)
      (truncf .bf16 (transpose S128x128 [1, 0] (extractStridedSlice S128x128 ![0, 0]
        (m ((c : Thread nD τ).loc main_arg1) : FVec Ideal S128x256 .f32) slices_S128x256_S128x128_0_0)
        transposes_S128x128_S128x128_1_0 : FVec Ideal S128x128 .f32) bitsLt_bf16_f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  try rfl

/-- The last 128 columns of the first layer's weights, transposed and narrowed. -/
theorem V_v33 (c : Dev nD) :
    @Eq (FVec Ideal S128x128 .bf16) (Gen.V m c main_v33)
      (truncf .bf16 (transpose S128x128 [1, 0] (extractStridedSlice S128x128 ![0, 128]
        (m ((c : Thread nD τ).loc main_arg1) : FVec Ideal S128x256 .f32) slices_S128x256_S128x128_0_128)
        transposes_S128x128_S128x128_1_0 : FVec Ideal S128x128 .f32) bitsLt_bf16_f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  try rfl

/-! ## Those terms read at an index, over any argument array -/

/-- Entry (k, d) of the transposed first half of a 128 × 256 matrix is its entry (d, k). -/
theorem w1_fst_entry (W1 : FVec Ideal S128x256 .f32) (k d : Fin 128) :
    (truncf .bf16 (transpose S128x128 [1, 0] (extractStridedSlice S128x128 ![0, 0] W1 slices_S128x256_S128x128_0_0)
      transposes_S128x128_S128x128_1_0 : FVec Ideal S128x128 .f32) bitsLt_bf16_f32 : FVec Ideal S128x128 .bf16) (ix2 k d)
      = W1 (ix2 d (⟨k.val, Nat.lt_of_lt_of_le k.isLt (by decide)⟩ : Fin 256)) := by
  show transpose S128x128 [1, 0] (extractStridedSlice S128x128 ![0, 0] W1 slices_S128x256_S128x128_0_0)
      transposes_S128x128_S128x128_1_0 (ix2 k d) = _
  refine (transpose_apply _ _ _ (ix2 k d) (ix2 d k) (fun b => match b with | ⟨0, _⟩ => rfl | ⟨1, _⟩ => rfl)).trans ?_
  exact extractStridedSlice_apply _ _ _ (ix2 d k) (ix2 d (⟨k.val, Nat.lt_of_lt_of_le k.isLt (by decide)⟩ : Fin 256))
    (fun a => match a with
      | ⟨0, _⟩ => by show d.val = 0 + d.val; omega
      | ⟨1, _⟩ => by show k.val = 0 + k.val; omega)

/-- Entry (k, d) of the transposed second half of a 128 × 256 matrix is its entry (d, 128 + k). -/
theorem w1_snd_entry (W1 : FVec Ideal S128x256 .f32) (k d : Fin 128) :
    (truncf .bf16 (transpose S128x128 [1, 0] (extractStridedSlice S128x128 ![0, 128] W1 slices_S128x256_S128x128_0_128)
      transposes_S128x128_S128x128_1_0 : FVec Ideal S128x128 .f32) bitsLt_bf16_f32 : FVec Ideal S128x128 .bf16) (ix2 k d)
      = W1 (ix2 d (⟨128 + k.val, by have := k.isLt; omega⟩ : Fin 256)) := by
  show transpose S128x128 [1, 0] (extractStridedSlice S128x128 ![0, 128] W1 slices_S128x256_S128x128_0_128)
      transposes_S128x128_S128x128_1_0 (ix2 k d) = _
  refine (transpose_apply _ _ _ (ix2 k d) (ix2 d k) (fun b => match b with | ⟨0, _⟩ => rfl | ⟨1, _⟩ => rfl)).trans ?_
  exact extractStridedSlice_apply _ _ _ (ix2 d k) (ix2 d (⟨128 + k.val, by have := k.isLt; omega⟩ : Fin 256))
    (fun a => match a with
      | ⟨0, _⟩ => by show d.val = 0 + d.val; omega
      | ⟨1, _⟩ => by show 128 + k.val = 128 + k.val; rfl)

/-- Entry (0, d) of a 128-vector reshaped to one row is its entry d. -/
theorem row_entry (b1 : FVec Ideal S128 .f32) (a : Fin 1) (d : Fin 128) :
    (shapeCast S1x128 b1 shapeCasts_S128_S1x128 : FVec Ideal S1x128 .f32) (ix2 a d) = b1 (ix1 d) := by
  refine shapeCast_apply _ _ (ix2 a d) (ix1 d) ?_
  rw [Shape.rowMajor_val_one, Shape.rowMajor_val_two]
  show d.val = a.val * 128 + d.val
  have := a.isLt; omega

/-- The one entry of a 1-vector reshaped to 1 × 1 is its entry. -/
theorem one_entry (b2 : FVec Ideal S1 .f32) (a b : Fin 1) :
    (shapeCast S1x1 b2 shapeCasts_S1_S1x1 : FVec Ideal S1x1 .f32) (ix2 a b) = b2 (ix1 (0 : Fin 1)) := by
  refine shapeCast_apply _ _ (ix2 a b) (ix1 (0 : Fin 1)) ?_
  rw [Shape.rowMajor_val_one, Shape.rowMajor_val_two]
  show (0 : Fin 1).val = a.val * 1 + b.val
  have := a.isLt; have := b.isLt; show 0 = _; omega

/-! ## The blocks: each resident window's one block is its whole array -/

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem iblk4_V (c : Dev nD) (t : Fin cfg0.N) (a b : Fin 128) :
    (Gen.iblk m c 4 t : FVec Ideal S128x128 .bf16) (ix2 a b) = (Gen.V m c main_v31 : FVec Ideal S128x128 .bf16) (ix2 a b) := by
  have hi := idx4 t
  unfold Gen.iblk
  rw [View.read_apply]
  show Gen.V m c main_v31 _ = Gen.V m c main_v31 _
  congr 1
  funext d
  apply Fin.ext
  match d with
  | ⟨0, _⟩ => show win0_4.index t 0 * 128 + 1 * a.val = a.val; rw [hi.1]; omega
  | ⟨1, _⟩ => show win0_4.index t 1 * 128 + 1 * b.val = b.val; rw [hi.2]; omega

theorem iblk5_V (c : Dev nD) (t : Fin cfg0.N) (a b : Fin 128) :
    (Gen.iblk m c 5 t : FVec Ideal S128x128 .bf16) (ix2 a b) = (Gen.V m c main_v33 : FVec Ideal S128x128 .bf16) (ix2 a b) := by
  have hi := idx5 t
  unfold Gen.iblk
  rw [View.read_apply]
  show Gen.V m c main_v33 _ = Gen.V m c main_v33 _
  congr 1
  funext d
  apply Fin.ext
  match d with
  | ⟨0, _⟩ => show win0_5.index t 0 * 128 + 1 * a.val = a.val; rw [hi.1]; omega
  | ⟨1, _⟩ => show win0_5.index t 1 * 128 + 1 * b.val = b.val; rw [hi.2]; omega

theorem iblk6_V (c : Dev nD) (t : Fin cfg0.N) (a : Fin 1) (b : Fin 128) :
    (Gen.iblk m c 6 t : FVec Ideal S1x128 .f32) (ix2 a b) = (Gen.V m c main_v35 : FVec Ideal S1x128 .f32) (ix2 a b) := by
  have hi := idx6 t
  unfold Gen.iblk
  rw [View.read_apply]
  show Gen.V m c main_v35 _ = Gen.V m c main_v35 _
  congr 1
  funext d
  apply Fin.ext
  match d with
  | ⟨0, _⟩ => show win0_6.index t 0 * 1 + 1 * a.val = a.val; rw [hi.1]; omega
  | ⟨1, _⟩ => show win0_6.index t 1 * 128 + 1 * b.val = b.val; rw [hi.2]; omega

theorem iblk7_V (c : Dev nD) (t : Fin cfg0.N) (a : Fin 1) (b : Fin 128) :
    (Gen.iblk m c 7 t : FVec Ideal S1x128 .bf16) (ix2 a b) = (Gen.V m c main_v34 : FVec Ideal S1x128 .bf16) (ix2 a b) := by
  have hi := idx7 t
  unfold Gen.iblk
  rw [View.read_apply]
  show Gen.V m c main_v34 _ = Gen.V m c main_v34 _
  congr 1
  funext d
  apply Fin.ext
  match d with
  | ⟨0, _⟩ => show win0_7.index t 0 * 1 + 1 * a.val = a.val; rw [hi.1]; omega
  | ⟨1, _⟩ => show win0_7.index t 1 * 128 + 1 * b.val = b.val; rw [hi.2]; omega

theorem iblk8_V (c : Dev nD) (t : Fin cfg0.N) (a b : Fin 1) :
    (Gen.iblk m c 8 t : FVec Ideal S1x1 .f32) (ix2 a b) = (Gen.V m c main_v36 : FVec Ideal S1x1 .f32) (ix2 a b) := by
  have hi := idx8 t
  unfold Gen.iblk
  rw [View.read_apply]
  show Gen.V m c main_v36 _ = Gen.V m c main_v36 _
  congr 1
  funext d
  apply Fin.ext
  match d with
  | ⟨0, _⟩ => show win0_8.index t 0 * 1 + 1 * a.val = a.val; rw [hi.1]; omega
  | ⟨1, _⟩ => show win0_8.index t 1 * 1 + 1 * b.val = b.val; rw [hi.2]; omega

/-! ## The five resident blocks as entries of the argument arrays -/

/-- Window 4, entry (k, d): the first layer's weight W1 (d, k). -/
theorem iblk4_entry (c : Dev nD) (t : Fin cfg0.N) (k d : Fin 128) :
    (Gen.iblk m c 4 t : FVec Ideal S128x128 .bf16) (ix2 k d)
      = (m ((c : Thread nD τ).loc main_arg1) : FVec Ideal S128x256 .f32) (ix2 d (⟨k.val, Nat.lt_of_lt_of_le k.isLt (by decide)⟩ : Fin 256)) :=
  (iblk4_V m c t k d).trans ((congrFun (V_v31 m c) (ix2 k d)).trans (w1_fst_entry _ k d))

/-- Window 5, entry (k, d): the first layer's weight W1 (d, 128 + k). -/
theorem iblk5_entry (c : Dev nD) (t : Fin cfg0.N) (k d : Fin 128) :
    (Gen.iblk m c 5 t : FVec Ideal S128x128 .bf16) (ix2 k d)
      = (m ((c : Thread nD τ).loc main_arg1) : FVec Ideal S128x256 .f32) (ix2 d (⟨128 + k.val, by have := k.isLt; omega⟩ : Fin 256)) :=
  (iblk5_V m c t k d).trans ((congrFun (V_v33 m c) (ix2 k d)).trans (w1_snd_entry _ k d))

/-- Window 6, entry (0, d): the first layer's bias b1 (d). -/
theorem iblk6_entry (c : Dev nD) (t : Fin cfg0.N) (a : Fin 1) (d : Fin 128) :
    (Gen.iblk m c 6 t : FVec Ideal S1x128 .f32) (ix2 a d)
      = (m ((c : Thread nD τ).loc main_arg2) : FVec Ideal S128 .f32) (ix1 d) :=
  (iblk6_V m c t a d).trans ((congrFun (V_v35 m c) (ix2 a d)).trans (row_entry _ a d))

/-- Window 7, entry (0, d): the second layer's weight W2 (0, d). -/
theorem iblk7_entry (c : Dev nD) (t : Fin cfg0.N) (a : Fin 1) (d : Fin 128) :
    (Gen.iblk m c 7 t : FVec Ideal S1x128 .bf16) (ix2 a d)
      = (m ((c : Thread nD τ).loc main_arg3) : FVec Ideal S1x128 .f32) (ix2 a d) :=
  (iblk7_V m c t a d).trans (congrFun (V_v34 m c) (ix2 a d))

/-- Window 8, its one entry: the second layer's bias b2 (0). -/
theorem iblk8_entry (c : Dev nD) (t : Fin cfg0.N) (a b : Fin 1) :
    (Gen.iblk m c 8 t : FVec Ideal S1x1 .f32) (ix2 a b)
      = (m ((c : Thread nD τ).loc main_arg4) : FVec Ideal S1 .f32) (ix1 (0 : Fin 1)) :=
  (iblk8_V m c t a b).trans ((congrFun (V_v36 m c) (ix2 a b)).trans (one_entry _ a b))

end Cert.KernelIdeal.KInputs

end
-- ==== Proof.KInMask.lean ====
/-
  THE LABEL AND WEIGHT BLOCKS OF THE KERNEL READ AT AN INDEX.

  The host program pads the 600000 labels to 606208 = 74 × 8192 entries with the zero word converted to a float, and
  builds the weight of padded edge e as the conversion of the bit "e < 600000"; both are reshaped to one row, and
  grid point t stages columns 8192 t … 8192 t + 8191. So entry (0, l) of the label block at point t is the label of
  edge e = 8192 t + l when e < 600000 and the real number 0 otherwise, and the same entry of the weight block is the
  real number 1 when e < 600000 and 0 otherwise (at the ideal instance an integer converts to itself).
-/
import proofs.«145935_j4123168604526_2_alg».proof.Proof.Gen.KernelIdeal.Frame.Runs
import proofs.«145935_j4123168604526_2_alg».proof.Proof.Spec
import Idealize.ShloMosaic.Lib.Pipeline.Value
import Idealize.ShloMosaic.Lib.IdealHost
import Idealize.ShloMosaic.Lib.KernelVsHost
import Idealize.ShloMosaic.Lib.Tactic

noncomputable section

open Idealize.ShloMosaic Idealize.ShloMosaic.TcCoe Idealize.SL.Sem
open Idealize.ShloMosaic.ValueIdx

namespace Cert.KernelIdeal.KInputs

open Cert.KernelIdeal Cert.KernelIdeal.Gen

variable (m : (ℓ : Loc nD τ sig) → Buf (Elt Ideal) ℓ)

/-- A padded edge number is below the padded length: 73 · 8192 + 8191 < 606208. -/
theorem edge_lt (t : Fin cfg0.N) (l : Fin 8192) : 8192 * t.val + l.val < 606208 := by
  have hN : t.val < 74 := lt_of_lt_of_eq t.isLt Gen.N_0
  have := l.isLt
  omega

/-! ## The staged arrays read at an index

A reshape's result is stated through a transport along the equality of the two buffers' element types. Both types
are the 32-bit float type, so at one element the transport is the identity; the 606208-entry reshapes are only
ever read at an index, never compared as whole arrays. -/

/-- The staged labels at (0, e): the host's padded labels at e. -/
theorem V_v22_apply (c : Dev nD) (a : Fin 1) (e : Fin 606208) :
    (Gen.V m c main_v22 : FVec Ideal S1x606208 .f32) (ix2 a e)
      = (pad S606208 ![0] ![6208] ![0] (m ((c : Thread nD τ).loc main_arg5) : FVec Ideal S600000 .f32)
          (sitofp .f32 (constantI S_ 32 0#32) : FVec Ideal S_ .f32) pads_S600000_S606208_062080 h_S_ : FVec Ideal S606208 .f32) (ix1 e) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  beta_reduce
  show shapeCast S1x606208 _ shapeCasts_S606208_S1x606208 (ix2 a e) = _
  refine (shapeCast_apply _ _ (ix2 a e) (ix1 e) ?_).trans ?_
  · rw [Shape.rowMajor_val_one, Shape.rowMajor_val_two]
    show e.val = a.val * 606208 + e.val
    have := a.isLt; omega
  · rfl

/-- The staged weights at (0, e): the converted comparison bit at e. -/
theorem V_v27_apply (c : Dev nD) (a : Fin 1) (e : Fin 606208) :
    (Gen.V m c main_v27 : FVec Ideal S1x606208 .f32) (ix2 a e)
      = (uitofp .f32 (cmpi .slt (iotaInDim S606208 32 0)
          (broadcastInDim S606208 ![] bcast_S_S606208 (constantI S_ 32 600000#32)) : IVec S606208 1) : FVec Ideal S606208 .f32) (ix1 e) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  beta_reduce
  show shapeCast S1x606208 _ shapeCasts_S606208_S1x606208 (ix2 a e) = _
  refine (shapeCast_apply _ _ (ix2 a e) (ix1 e) ?_).trans ?_
  · rw [Shape.rowMajor_val_one, Shape.rowMajor_val_two]
    show e.val = a.val * 606208 + e.val
    have := a.isLt; omega
  · rfl

/-! ## The host's terms read at an index -/

/-- The padded labels at padded edge e: the label below 600000, the real number 0 from there on (the pad value
    is the zero word converted, and at the ideal instance an integer converts to itself). -/
theorem lab_apply (lab : FVec Ideal S600000 .f32) (e : Fin 606208) :
    (pad S606208 ![0] ![6208] ![0] lab
        (sitofp .f32 (constantI S_ 32 0#32) : FVec Ideal S_ .f32) pads_S600000_S606208_062080 h_S_ : FVec Ideal S606208 .f32) (ix1 e)
      = if h : e.val < 600000 then lab (ix1 (⟨e.val, h⟩ : Fin 600000)) else ((0 : ℝ) : EReal) := by
  by_cases h : e.val < 600000
  · rw [dif_pos h]
    exact pad_apply_of_inside _ _ _ _ _ _ _ (ix1 e) (ix1 (⟨e.val, h⟩ : Fin 600000))
      (fun b => match b with | ⟨0, _⟩ => by show e.val = 0 + e.val * (0 + 1); omega)
  · rw [dif_neg h]
    refine (pad_apply_of_not_inside _ _ _ _ _ _ _ (ix1 e) (0 : Fin 1) ?_).trans ?_
    · intro h3
      have h4 : (e.val - 0) / (0 + 1) < 600000 := h3.2.2
      omega
    · show (((0#32 : BitVec 32).toInt : ℝ) : EReal) = ((0 : ℝ) : EReal)
      rw [BitVec.toInt_zero, Int.cast_zero]

/-- The comparison bit of an edge number below 2³¹ against 600000. -/
theorem slt_edge (e : Nat) (he : e < 606208) :
    IntOp.cmpi .slt (BitVec.ofNat 32 e) 600000#32 = if e < 600000 then 1#1 else 0#1 := by
  have h1 : (BitVec.ofNat 32 e).toNat = e := by
    rw [BitVec.toNat_ofNat]; exact Nat.mod_eq_of_lt (by omega)
  have h2 : (BitVec.ofNat 32 e).toInt = (e : Int) := by
    rw [BitVec.toInt_eq_toNat_of_lt (by rw [h1]; omega), h1]
  have h3 : (600000#32 : BitVec 32).toInt = 600000 := by decide
  show BitVec.ofBool ((BitVec.ofNat 32 e).slt 600000#32) = _
  rw [BitVec.slt_eq_decide, h2, h3]
  by_cases h : e < 600000
  · rw [if_pos h, decide_eq_true (by omega)]; rfl
  · rw [if_neg h, decide_eq_false (by omega)]; rfl

/-- The weights at padded edge e: the real number 1 below 600000, 0 from there on. -/
theorem wgt_apply (e : Fin 606208) :
    (uitofp .f32 (cmpi .slt (iotaInDim S606208 32 0)
        (broadcastInDim S606208 ![] bcast_S_S606208 (constantI S_ 32 600000#32)) : IVec S606208 1) : FVec Ideal S606208 .f32) (ix1 e)
      = if e.val < 600000 then ((1 : ℝ) : EReal) else ((0 : ℝ) : EReal) := by
  show ((((IntOp.cmpi .slt (BitVec.ofNat 32 e.val) 600000#32).toNat : ℕ) : ℝ) : EReal) = _
  rw [slt_edge e.val e.isLt]
  by_cases h : e.val < 600000
  · rw [if_pos h, if_pos h]; norm_num
  · rw [if_neg h, if_neg h]; norm_num

/-! ## The blocks: point t stages columns 8192 t … 8192 t + 8191

The block read is stated over ANY row array `A` (the staged array enters only as a variable), and instantiated
afterwards. -/

theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- Window 2's block at point t, read off any row array: entry (0, l) is the array's entry (0, 8192 t + l). -/
theorem blk2_read (A : FVec Ideal S1x606208 .f32) (t : Fin cfg0.N) (a : Fin 1) (l : Fin 8192) :
    (((cfg0.win 2).blk t).view.read (Elt Ideal) A : FVec Ideal S1x8192 .f32) (ix2 a l)
      = A (ix2 a (⟨8192 * t.val + l.val, edge_lt t l⟩ : Fin 606208)) := by
  have hi := idx2 t
  rw [View.read_apply]
  show A _ = A _
  congr 1
  funext d
  apply Fin.ext
  match d with
  | ⟨0, _⟩ => show win0_2.index t 0 * 1 + 1 * a.val = a.val; rw [hi.1]; omega
  | ⟨1, _⟩ => show win0_2.index t 1 * 8192 + 1 * l.val = 8192 * t.val + l.val; rw [hi.2]; omega

/-- Window 3's block at point t, read off any row array. -/
theorem blk3_read (A : FVec Ideal S1x606208 .f32) (t : Fin cfg0.N) (a : Fin 1) (l : Fin 8192) :
    (((cfg0.win 3).blk t).view.read (Elt Ideal) A : FVec Ideal S1x8192 .f32) (ix2 a l)
      = A (ix2 a (⟨8192 * t.val + l.val, edge_lt t l⟩ : Fin 606208)) := by
  have hi := idx3 t
  rw [View.read_apply]
  show A _ = A _
  congr 1
  funext d
  apply Fin.ext
  match d with
  | ⟨0, _⟩ => show win0_3.index t 0 * 1 + 1 * a.val = a.val; rw [hi.1]; omega
  | ⟨1, _⟩ => show win0_3.index t 1 * 8192 + 1 * l.val = 8192 * t.val + l.val; rw [hi.2]; omega

theorem iblk2_V (c : Dev nD) (t : Fin cfg0.N) (a : Fin 1) (l : Fin 8192) :
    (Gen.iblk m c 2 t : FVec Ideal S1x8192 .f32) (ix2 a l)
      = (Gen.V m c main_v22 : FVec Ideal S1x606208 .f32) (ix2 a (⟨8192 * t.val + l.val, edge_lt t l⟩ : Fin 606208)) := by
  unfold Gen.iblk
  exact blk2_read (Gen.V m c (Pipeline.arrRef spec0 2)) t a l

theorem iblk3_V (c : Dev nD) (t : Fin cfg0.N) (a : Fin 1) (l : Fin 8192) :
    (Gen.iblk m c 3 t : FVec Ideal S1x8192 .f32) (ix2 a l)
      = (Gen.V m c main_v27 : FVec Ideal S1x606208 .f32) (ix2 a (⟨8192 * t.val + l.val, edge_lt t l⟩ : Fin 606208)) := by
  unfold Gen.iblk
  exact blk3_read (Gen.V m c (Pipeline.arrRef spec0 3)) t a l

/-! ## The two blocks as entries of the argument arrays -/

/-- Window 2, entry (0, l) at point t: the label of edge 8192 t + l below 600000, the real number 0 from there on. -/
theorem iblk2_entry (c : Dev nD) (t : Fin cfg0.N) (a : Fin 1) (l : Fin 8192) :
    (Gen.iblk m c 2 t : Vec Ideal S1x8192 .f32) (ix2 a l)
      = if h : 8192 * t.val + l.val < 600000 then
          (m ((c : Thread nD τ).loc main_arg5) : (⟨1, ![600000]⟩ : Shape).Idx → EReal) (ix1 (⟨8192 * t.val + l.val, h⟩ : Fin 600000))
        else ((0 : ℝ) : EReal) :=
  (iblk2_V m c t a l).trans ((V_v22_apply m c a ⟨8192 * t.val + l.val, edge_lt t l⟩).trans
    (lab_apply _ ⟨8192 * t.val + l.val, edge_lt t l⟩))

/-- Window 3, entry (0, l) at point t: the weight of edge 8192 t + l, the real number 1 below 600000 and 0 from there on. -/
theorem iblk3_entry (c : Dev nD) (t : Fin cfg0.N) (a : Fin 1) (l : Fin 8192) :
    (Gen.iblk m c 3 t : Vec Ideal S1x8192 .f32) (ix2 a l)
      = if 8192 * t.val + l.val < 600000 then ((1 : ℝ) : EReal) else ((0 : ℝ) : EReal) :=
  (iblk3_V m c t a l).trans ((V_v27_apply m c a ⟨8192 * t.val + l.val, edge_lt t l⟩).trans
    (wgt_apply ⟨8192 * t.val + l.val, edge_lt t l⟩))

end Cert.KernelIdeal.KInputs

end
-- ==== Proof.KInGather.lean ====
/-
  THE TWO GATHERED-ROW BLOCKS OF THE KERNEL READ AT AN INDEX.

  The host program takes row s of the index words (s = 0 the source node, s = 1 the target node), pads its 600000
  words to 606208 = 74 × 8192 with the zero word, turns a negative word w into w + 50000, and gathers for each padded
  edge the table row the resulting word names: the gather reads the word as a signed integer and clamps the row into
  the table. Grid point t stages rows 8192 t … 8192 t + 8191 of the gathered array. So entry (r, k) of the block at
  point t is x (node w, k), where w is the index word of edge e = 8192 t + r when e < 600000 and the zero word
  otherwise, and node is the shared definition: add 50000 to a negative word, read it signed, clamp into the table.
  The table is narrowed before the gather; at the ideal instance that is the identity.
-/
import proofs.«145935_j4123168604526_2_alg».proof.Proof.Gen.KernelIdeal.Frame.Runs
import proofs.«145935_j4123168604526_2_alg».proof.Proof.Spec
import Idealize.ShloMosaic.Lib.Pipeline.Value
import Idealize.ShloMosaic.Lib.IdealHost
import Idealize.ShloMosaic.Lib.KernelVsHost
import Idealize.ShloMosaic.Lib.Tactic

noncomputable section

open Idealize.ShloMosaic Idealize.ShloMosaic.TcCoe Idealize.SL.Sem
open Idealize.ShloMosaic.ValueIdx

namespace Cert.KernelIdeal.KInputs

open Cert.KernelIdeal Cert.KernelIdeal.Gen

variable (m : (ℓ : Loc nD τ sig) → Buf (Elt Ideal) ℓ)

/-- A padded edge number is below the padded length: 73 · 8192 + 8191 < 606208. -/
theorem row_lt (t : Fin cfg0.N) (r : Fin 8192) : 8192 * t.val + r.val < 606208 := by
  have hN : t.val < 74 := lt_of_lt_of_eq t.isLt Gen.N_0
  have := r.isLt
  omega

/-- The index word of padded edge e on side s: the argument's word below 600000, the zero word from there on. -/
def padWord (pairs : IVec S2x600000 32) (s : Fin 2) (e : Nat) : BitVec 32 :=
  if h : e < 600000 then pairs (ix2 s (⟨e, h⟩ : Fin 600000)) else 0#32

theorem padWord_of_lt (pairs : IVec S2x600000 32) (s : Fin 2) (e : Nat) (h : e < 600000) :
    padWord pairs s e = pairs (ix2 s (⟨e, h⟩ : Fin 600000)) := dif_pos h

theorem padWord_of_ge (pairs : IVec S2x600000 32) (s : Fin 2) (e : Nat) (h : 600000 ≤ e) :
    padWord pairs s e = 0#32 := dif_neg (Nat.not_lt.2 h)

/-! ## The host operations' terms, named -/

/-- The source nodes' words: row 0 of the index words as a vector. -/
abbrev side0 (pairs : IVec S2x600000 32) : IVec S600000 32 :=
  shapeCast S600000 (extractStridedSlice S1x600000 ![0, 0] pairs slices_S2x600000_S1x600000_0_0) shapeCasts_S1x600000_S600000
/-- The target nodes' words: row 1. -/
abbrev side1 (pairs : IVec S2x600000 32) : IVec S600000 32 :=
  shapeCast S600000 (extractStridedSlice S1x600000 ![1, 0] pairs slices_S2x600000_S1x600000_1_0) shapeCasts_S1x600000_S600000
/-- A vector of 600000 words padded to 606208 with the zero word. -/
abbrev padWords (v : IVec S600000 32) : IVec S606208 32 :=
  pad S606208 ![0] ![6208] ![0] v (constantI S_ 32 0#32) pads_S600000_S606208_062080 h_S_
/-- Negative words moved up by the table's height, as a column of start indices. -/
abbrev startIdx (w : IVec S606208 32) : IVec S606208x1 32 :=
  broadcastInDim S606208x1 ![0] bcast_S606208_S606208x1_0
    (select (cmpi .slt w (broadcastInDim S606208 ![] bcast_S_S606208 (constantI S_ 32 0#32)))
      (addi w (broadcastInDim S606208 ![] bcast_S_S606208 (constantI S_ 32 50000#32))) w)

/-! ## The staged arrays as terms of the argument arrays -/

/-- The source rows gathered. -/
theorem V_v13 (c : Dev nD) :
    @Eq (FVec Ideal S606208x128 .bf16) (Gen.V m c main_v13)
      (Host.gather gather_S50000x128_S606208x1_S606208x128_1_0_n_n_0_1_1128
        (truncf .bf16 (m ((c : Thread nD τ).loc main_arg0) : FVec Ideal S50000x128 .f32) bitsLt_bf16_f32 : FVec Ideal S50000x128 .bf16)
        (startIdx (padWords (side0 (m ((c : Thread nD τ).loc main_arg6) : IVec S2x600000 32))))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  try rfl

/-- The target rows gathered. -/
theorem V_v20 (c : Dev nD) :
    @Eq (FVec Ideal S606208x128 .bf16) (Gen.V m c main_v20)
      (Host.gather gather_S50000x128_S606208x1_S606208x128_1_0_n_n_0_1_1128
        (truncf .bf16 (m ((c : Thread nD τ).loc main_arg0) : FVec Ideal S50000x128 .f32) bitsLt_bf16_f32 : FVec Ideal S50000x128 .bf16)
        (startIdx (padWords (side1 (m ((c : Thread nD τ).loc main_arg6) : IVec S2x600000 32))))) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  try rfl

/-! ## The gather of whole rows read at an index -/

/-- THE ROW GATHER READ AT (r, k): the table at column k of the row the start index of r names, read signed and
    clamped into the table. -/
theorem gather_rows_apply {α : Type} (x : S50000x128.Idx → α) (idx : IVec S606208x1 32) (r : Fin 606208) (k : Fin 128) :
    Host.gather gather_S50000x128_S606208x1_S606208x128_1_0_n_n_0_1_1128 x idx (ix2 r k)
      = x (ix2 (⟨min (idx (ix2 r (0 : Fin 1))).toInt.toNat 49999, Nat.lt_succ_of_le (Nat.min_le_right _ _)⟩ : Fin 50000) k) := by
  unfold Host.gather
  refine congrArg x (funext fun a => Fin.ext ?_)
  match a with
  | ⟨0, _⟩ =>
    show gather_S50000x128_S606208x1_S606208x128_1_0_n_n_0_1_1128.start (ix2 r k) idx 0
        + gather_S50000x128_S606208x1_S606208x128_1_0_n_n_0_1_1128.batchCoord (ix2 r k) 0
        + gather_S50000x128_S606208x1_S606208x128_1_0_n_n_0_1_1128.offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S606208x1_S606208x128_1_0_n_n_0_1_1128.startIndexMap from List.mem_singleton.mpr rfl)]
    have hsi : gather_S50000x128_S606208x1_S606208x128_1_0_n_n_0_1_1128.siIdx (ix2 r k)
        ⟨List.idxOf (0 : Fin 2) gather_S50000x128_S606208x1_S606208x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S50000x128_S606208x1_S606208x128_1_0_n_n_0_1_1128.start (ix2 r k) idx 1
        + gather_S50000x128_S606208x1_S606208x128_1_0_n_n_0_1_1128.batchCoord (ix2 r k) 1
        + gather_S50000x128_S606208x1_S606208x128_1_0_n_n_0_1_1128.offCoord (ix2 r k) 1 = k.val
    rw [GatherDims.batchCoord_eq_zero _ _ _ List.not_mem_nil]
    unfold GatherDims.start
    rw [dif_neg (show (1 : Fin 2) ∉ gather_S50000x128_S606208x1_S606208x128_1_0_n_n_0_1_1128.startIndexMap by decide)]
    unfold GatherDims.offCoord
    rw [dif_pos (show (1 : Fin 2) ∈ gather_S50000x128_S606208x1_S606208x128_1_0_n_n_0_1_1128.sKept by decide)]
    show 0 + 0 + k.val = k.val
    omega

/-! ## The start indices read at an index -/

/-- A padded vector of words at padded edge e: the word below 600000, the zero word from there on. -/
theorem padWords_apply (v : IVec S600000 32) (e : Fin 606208) :
    padWords v (ix1 e) = if h : e.val < 600000 then v (ix1 (⟨e.val, h⟩ : Fin 600000)) else 0#32 := by
  by_cases h : e.val < 600000
  · rw [dif_pos h]
    exact pad_apply_of_inside _ _ _ _ _ _ _ (ix1 e) (ix1 (⟨e.val, h⟩ : Fin 600000))
      (fun b => match b with | ⟨0, _⟩ => by show e.val = 0 + e.val * (0 + 1); omega)
  · rw [dif_neg h]
    refine (pad_apply_of_not_inside _ _ _ _ _ _ _ (ix1 e) (0 : Fin 1) ?_).trans rfl
    intro h3
    have h4 : (e.val - 0) / (0 + 1) < 600000 := h3.2.2
    omega

/-- Side s of the index words at edge e. -/
theorem side0_apply (pairs : IVec S2x600000 32) (e : Fin 600000) : side0 pairs (ix1 e) = pairs (ix2 (0 : Fin 2) e) := by
  refine (shapeCast_apply _ _ (ix1 e) (ix2 (0 : Fin 1) e) ?_).trans ?_
  · rw [Shape.rowMajor_val_one, Shape.rowMajor_val_two]
    show (0 : Fin 1).val * 600000 + e.val = e.val
    show 0 * 600000 + e.val = e.val
    omega
  · exact extractStridedSlice_apply _ _ _ (ix2 (0 : Fin 1) e) (ix2 (0 : Fin 2) e)
      (fun a => match a with
        | ⟨0, _⟩ => by show (0 : Fin 2).val = 0 + (0 : Fin 1).val; rfl
        | ⟨1, _⟩ => by show e.val = 0 + e.val; omega)

theorem side1_apply (pairs : IVec S2x600000 32) (e : Fin 600000) : side1 pairs (ix1 e) = pairs (ix2 (1 : Fin 2) e) := by
  refine (shapeCast_apply _ _ (ix1 e) (ix2 (0 : Fin 1) e) ?_).trans ?_
  · rw [Shape.rowMajor_val_one, Shape.rowMajor_val_two]
    show (0 : Fin 1).val * 600000 + e.val = e.val
    show 0 * 600000 + e.val = e.val
    omega
  · exact extractStridedSlice_apply _ _ _ (ix2 (0 : Fin 1) e) (ix2 (1 : Fin 2) e)
      (fun a => match a with
        | ⟨0, _⟩ => by show (1 : Fin 2).val = 1 + (0 : Fin 1).val; rfl
        | ⟨1, _⟩ => by show e.val = 0 + e.val; omega)

/-- The padded words of side 0 are `padWord` on side 0. -/
theorem padWords_side0 (pairs : IVec S2x600000 32) (e : Fin 606208) :
    padWords (side0 pairs) (ix1 e) = padWord pairs 0 e.val := by
  rw [padWords_apply]
  unfold padWord
  by_cases h : e.val < 600000
  · rw [dif_pos h, dif_pos h]; exact side0_apply pairs ⟨e.val, h⟩
  · rw [dif_neg h, dif_neg h]

theorem padWords_side1 (pairs : IVec S2x600000 32) (e : Fin 606208) :
    padWords (side1 pairs) (ix1 e) = padWord pairs 1 e.val := by
  rw [padWords_apply]
  unfold padWord
  by_cases h : e.val < 600000
  · rw [dif_pos h, dif_pos h]; exact side1_apply pairs ⟨e.val, h⟩
  · rw [dif_neg h, dif_neg h]

/-- The gathered array at (e, k): the table at the node of the padded word, for any vector of padded words. -/
theorem gathered_apply (x : FVec Ideal S50000x128 .f32) (w : IVec S606208 32) (e : Fin 606208) (k : Fin 128) :
    (Host.gather gather_S50000x128_S606208x1_S606208x128_1_0_n_n_0_1_1128
        (truncf .bf16 x bitsLt_bf16_f32 : FVec Ideal S50000x128 .bf16) (startIdx w) : FVec Ideal S606208x128 .bf16) (ix2 e k)
      = x (ix2 (LinkLoss.node (w (ix1 e))) k) := by
  refine (gather_rows_apply _ _ e k).trans ?_
  have hs : startIdx w (ix2 e (0 : Fin 1))
      = Scalar.select (IntOp.cmpi .slt (w (ix1 e)) 0#32) (IntOp.addi (w (ix1 e)) 50000#32) (w (ix1 e)) :=
    broadcastInDim_apply _ _ _ (ix2 e (0 : Fin 1)) (ix1 e) (fun a => match a with | ⟨0, _⟩ => rfl)
  show x (ix2 (⟨min (startIdx w (ix2 e (0 : Fin 1))).toInt.toNat 49999, _⟩ : Fin 50000) k) = _
  refine congrArg x (congrArg (fun n : Fin 50000 => ix2 n k) (Fin.ext ?_))
  show min (startIdx w (ix2 e (0 : Fin 1))).toInt.toNat 49999 = (LinkLoss.node (w (ix1 e))).val
  rw [hs]
  rfl

/-! ## The blocks: point t stages rows 8192 t … 8192 t + 8191 -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk0_V (c : Dev nD) (t : Fin cfg0.N) (r : Fin 8192) (k : Fin 128) :
    (Gen.iblk m c 0 t : FVec Ideal S8192x128 .bf16) (ix2 r k)
      = (Gen.V m c main_v13 : FVec Ideal S606208x128 .bf16) (ix2 (⟨8192 * t.val + r.val, row_lt t r⟩ : Fin 606208) k) := by
  have hi := idx0 t
  unfold Gen.iblk
  rw [View.read_apply]
  show Gen.V m c main_v13 _ = Gen.V m c main_v13 _
  congr 1
  funext d
  apply Fin.ext
  match d with
  | ⟨0, _⟩ => show win0_0.index t 0 * 8192 + 1 * r.val = 8192 * t.val + r.val; rw [hi.1]; omega
  | ⟨1, _⟩ => show win0_0.index t 1 * 128 + 1 * k.val = k.val; rw [hi.2]; omega

theorem iblk1_V (c : Dev nD) (t : Fin cfg0.N) (r : Fin 8192) (k : Fin 128) :
    (Gen.iblk m c 1 t : FVec Ideal S8192x128 .bf16) (ix2 r k)
      = (Gen.V m c main_v20 : FVec Ideal S606208x128 .bf16) (ix2 (⟨8192 * t.val + r.val, row_lt t r⟩ : Fin 606208) k) := by
  have hi := idx1 t
  unfold Gen.iblk
  rw [View.read_apply]
  show Gen.V m c main_v20 _ = Gen.V m c main_v20 _
  congr 1
  funext d
  apply Fin.ext
  match d with
  | ⟨0, _⟩ => show win0_1.index t 0 * 8192 + 1 * r.val = 8192 * t.val + r.val; rw [hi.1]; omega
  | ⟨1, _⟩ => show win0_1.index t 1 * 128 + 1 * k.val = k.val; rw [hi.2]; omega

/-! ## The two blocks as entries of the argument arrays -/

/-- Window 0, entry (r, k) at point t: the table at the source node of padded edge 8192 t + r, column k. -/
theorem iblk0_entry (c : Dev nD) (t : Fin cfg0.N) (r : Fin 8192) (k : Fin 128) :
    (Gen.iblk m c 0 t : FVec Ideal S8192x128 .bf16) (ix2 r k)
      = (m ((c : Thread nD τ).loc main_arg0) : FVec Ideal S50000x128 .f32)
          (ix2 (LinkLoss.node (padWord (m ((c : Thread nD τ).loc main_arg6) : IVec S2x600000 32) 0 (8192 * t.val + r.val))) k) :=
  (iblk0_V m c t r k).trans ((congrFun (V_v13 m c) _).trans
    ((gathered_apply _ _ ⟨8192 * t.val + r.val, row_lt t r⟩ k).trans
      (congrArg (fun w => (m ((c : Thread nD τ).loc main_arg0) : FVec Ideal S50000x128 .f32) (ix2 (LinkLoss.node w) k))
        (padWords_side0 _ ⟨8192 * t.val + r.val, row_lt t r⟩))))

/-- Window 1, entry (r, k) at point t: the table at the target node of padded edge 8192 t + r, column k. -/
theorem iblk1_entry (c : Dev nD) (t : Fin cfg0.N) (r : Fin 8192) (k : Fin 128) :
    (Gen.iblk m c 1 t : FVec Ideal S8192x128 .bf16) (ix2 r k)
      = (m ((c : Thread nD τ).loc main_arg0) : FVec Ideal S50000x128 .f32)
          (ix2 (LinkLoss.node (padWord (m ((c : Thread nD τ).loc main_arg6) : IVec S2x600000 32) 1 (8192 * t.val + r.val))) k) :=
  (iblk1_V m c t r k).trans ((congrFun (V_v20 m c) _).trans
    ((gathered_apply _ _ ⟨8192 * t.val + r.val, row_lt t r⟩ k).trans
      (congrArg (fun w => (m ((c : Thread nD τ).loc main_arg0) : FVec Ideal S50000x128 .f32) (ix2 (LinkLoss.node w) k))
        (padWords_side1 _ ⟨8192 * t.val + r.val, row_lt t r⟩))))

end Cert.KernelIdeal.KInputs

end
-- ==== Proof.KLoss.lean ====
/-
  The kernel's result is the loss of its arguments.

  Every entry of the nine input blocks of a grid point is an entry of an argument array: lane `r` of point `t` holds
  the two table rows of padded edge `8192 · t + r`'s endpoints, its label (0 on the padding) and its weight (1 on
  a real edge, 0 on the padding); the resident blocks hold the two column halves of `W1` transposed, `b1`, `W2`
  and `b2`. With these the bridge applies.
-/
import proofs.«145935_j4123168604526_2_alg».proof.Proof.KBridge
import proofs.«145935_j4123168604526_2_alg».proof.Proof.KInSmall
import proofs.«145935_j4123168604526_2_alg».proof.Proof.KInMask
import proofs.«145935_j4123168604526_2_alg».proof.Proof.KInGather

noncomputable section
open Idealize.ShloMosaic Idealize.ShloMosaic.TcCoe Idealize.SL.Sem Idealize.ShloMosaic.ValueIdx

namespace Cert.KernelIdeal.KValue
open Cert.KernelIdeal Cert.KernelIdeal.Gen LinkLoss

variable [hPre_finite_inputs : Cert.Pre_finite_inputs.Facts]
variable (m : (ℓ : Loc nD τ sig) → Buf (Elt Ideal) ℓ)

/-- Under the precondition the kernel's result on core `c` is the loss of the argument arrays. -/
theorem kResult_eq_loss (hpre : Cert.Pre_KernelIdeal m) (c : Dev nD) :
    kResult m c = LinkLoss.loss (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) :=
  kResult_eq_loss_of_entries m hpre c
    (fun t r k => Cert.KernelIdeal.KInputs.iblk0_entry m c t r k)
    (fun t r k => Cert.KernelIdeal.KInputs.iblk1_entry m c t r k)
    (fun t l => Cert.KernelIdeal.KInputs.iblk2_entry m c t 0 l)
    (fun t l => Cert.KernelIdeal.KInputs.iblk3_entry m c t 0 l)
    (fun t k d => Cert.KernelIdeal.KInputs.iblk4_entry m c t k d)
    (fun t k d => Cert.KernelIdeal.KInputs.iblk5_entry m c t k d)
    (fun t d => Cert.KernelIdeal.KInputs.iblk6_entry m c t 0 d)
    (fun t d => Cert.KernelIdeal.KInputs.iblk7_entry m c t 0 d)
    (fun t => Cert.KernelIdeal.KInputs.iblk8_entry m c t 0 0)

end Cert.KernelIdeal.KValue
end
-- ==== Proof.RefOps.lean ====
/-
  The reference program as a straight line.

  The reference's @main is fifty-one lines, four of which call a function of the module: the rectifier once and the
  log-sigmoid twice, the log-sigmoid itself calling the softplus. A call executes the callee's body on the call's own
  buffers, so with every call opened in its place @main is one straight line of eighty-one operations: the two gathers
  of table rows (each after a slice, a recast, the wrap of a negative index word and the recast of the words to a column),
  their concatenation, the first linear layer and its rectifier, the second linear layer recast to a vector, the two
  log-sigmoids (of the logits and of their negation), the two products with the labels and with one minus the labels,
  their sum, and minus the mean.

  This module lists those operations in order, proves @main equal to their sequence, and states the run of the line:
  every weakly fair execution terminates and leaves each buffer at the fold of the operations over the launch
  contents.
-/
import proofs.«145935_j4123168604526_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's eighty-one operations in order, each call opened in its place over the call's own buffers: the
    rectifier's three after the first layer's sum, the log-sigmoid's sixteen (a negation, the softplus's fourteen,
    a negation) after the logits and again after the logits' negation. -/
abbrev ops : List (HloOp τ sig (Elt F)) :=
  [ StableHlo.unary main_arg6 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg6 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v3 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v3 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v10 main_v17 main_v18 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.unary main_arg1 main_v19 ((transpose S256x128 [1, 0] · transposes_S128x256_S256x128_1_0) : (⟨S128x256, .f32⟩ : BufTy).Contents (Elt F) → (⟨S256x128, .f32⟩ : BufTy).Contents (Elt F)),
    StableHlo.binary main_v18 main_v19 main_v20 ((fun l r => Host.dotGeneral dot_S600000x256_S256x128_S600000x128_1_0_0_1_n_n none l r) : (⟨S600000x256, .f32⟩ : BufTy).Contents (Elt F) → (⟨S256x128, .f32⟩ : BufTy).Contents (Elt F) → (⟨S600000x128, .f32⟩ : BufTy).Contents (Elt F)),
    StableHlo.unary main_arg2 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S600000x128 ![0, 1] bcast_S1x128_S600000x128_0_1 : (⟨S1x128, .f32⟩ : BufTy).Contents (Elt F) → (⟨S600000x128, .f32⟩ : BufTy).Contents (Elt F)),
    StableHlo.binary main_v20 main_v22 main_v23 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v23 : StableHlo.TRef sig ⟨S600000x128, .f32⟩) main_call0.v0 main_call0.v1 maximumf,
    StableHlo.unary main_arg3 main_v25 ((transpose S128x1 [1, 0] · transposes_S1x128_S128x1_1_0) : (⟨S1x128, .f32⟩ : BufTy).Contents (Elt F) → (⟨S128x1, .f32⟩ : BufTy).Contents (Elt F)),
    StableHlo.binary main_v24 main_v25 main_v26 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    StableHlo.unary main_arg4 main_v27 (broadcastInDim S1x1 ![1] bcast_S1_S1x1_1 : (⟨S1, .f32⟩ : BufTy).Contents (Elt F) → (⟨S1x1, .f32⟩ : BufTy).Contents (Elt F)),
    StableHlo.unary main_v27 main_v28 (broadcastInDim S600000x1 ![0, 1] bcast_S1x1_S600000x1_0_1 : (⟨S1x1, .f32⟩ : BufTy).Contents (Elt F) → (⟨S600000x1, .f32⟩ : BufTy).Contents (Elt F)),
    StableHlo.binary main_v26 main_v28 main_v29 (addf : (⟨S600000x1, .f32⟩ : BufTy).Contents (Elt F) → (⟨S600000x1, .f32⟩ : BufTy).Contents (Elt F) → (⟨S600000x1, .f32⟩ : BufTy).Contents (Elt F)),
    StableHlo.reshape main_v29 main_v30 rfl shapeCasts_S600000x1_S600000,
    StableHlo.TRef.unary (.of main_v30 : StableHlo.TRef sig ⟨S600000, .f32⟩) main_call1.v0 Host.negf,
    StableHlo.TRef.nullary main_call1.call0.cst (constant S_ .f32 0x00000000#32),
    StableHlo.TRef.unary main_call1.call0.cst main_call1.call0.v0 (broadcastInDim S600000 ![] bcast_S_S600000),
    StableHlo.TRef.binary main_call1.v0 main_call1.call0.v0 main_call1.call0.v1 maximumf,
    StableHlo.TRef.unary main_call1.call0.cst main_call1.call0.v2 (broadcastInDim S600000 ![] bcast_S_S600000),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S600000 ![] bcast_S_S600000),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_arg5 main_v31 main_v32 (mulf : (⟨S600000, .f32⟩ : BufTy).Contents (Elt F) → (⟨S600000, .f32⟩ : BufTy).Contents (Elt F) → (⟨S600000, .f32⟩ : BufTy).Contents (Elt F)),
    StableHlo.nullary main_cst (constant S_ .f32 0x3F800000#32),
    StableHlo.unary main_cst main_v33 (broadcastInDim S600000 ![] bcast_S_S600000 : (⟨S_, .f32⟩ : BufTy).Contents (Elt F) → (⟨S600000, .f32⟩ : BufTy).Contents (Elt F)),
    StableHlo.binary main_v33 main_arg5 main_v34 (subf : (⟨S600000, .f32⟩ : BufTy).Contents (Elt F) → (⟨S600000, .f32⟩ : BufTy).Contents (Elt F) → (⟨S600000, .f32⟩ : BufTy).Contents (Elt F)),
    StableHlo.unary main_v30 main_v35 (Host.negf : (⟨S600000, .f32⟩ : BufTy).Contents (Elt F) → (⟨S600000, .f32⟩ : BufTy).Contents (Elt F)),
    StableHlo.TRef.unary (.of main_v35 : StableHlo.TRef sig ⟨S600000, .f32⟩) main_call2.v0 Host.negf,
    StableHlo.TRef.nullary main_call2.call0.cst (constant S_ .f32 0x00000000#32),
    StableHlo.TRef.unary main_call2.call0.cst main_call2.call0.v0 (broadcastInDim S600000 ![] bcast_S_S600000),
    StableHlo.TRef.binary main_call2.v0 main_call2.call0.v0 main_call2.call0.v1 maximumf,
    StableHlo.TRef.unary main_call2.call0.cst main_call2.call0.v2 (broadcastInDim S600000 ![] bcast_S_S600000),
    StableHlo.TRef.binary main_call2.v0 main_call2.call0.v2 main_call2.call0.v3 subf,
    StableHlo.TRef.binary main_call2.call0.v3 main_call2.call0.v3 main_call2.call0.v4 (cmpf .une),
    StableHlo.TRef.unary main_call2.call0.cst main_call2.call0.v5 (broadcastInDim S600000 ![] bcast_S_S600000),
    StableHlo.TRef.binary main_call2.v0 main_call2.call0.v5 main_call2.call0.v6 addf,
    StableHlo.TRef.unary main_call2.call0.v3 main_call2.call0.v7 Host.absf,
    StableHlo.TRef.unary main_call2.call0.v7 main_call2.call0.v8 Host.negf,
    StableHlo.TRef.unary main_call2.call0.v8 main_call2.call0.v9 Host.exp,
    StableHlo.TRef.unary main_call2.call0.v9 main_call2.call0.v10 Host.log1p,
    StableHlo.TRef.binary main_call2.call0.v1 main_call2.call0.v10 main_call2.call0.v11 addf,
    StableHlo.TRef.ternary main_call2.call0.v4 main_call2.call0.v6 main_call2.call0.v11 main_call2.call0.v12 select,
    StableHlo.TRef.unary main_call2.call0.v12 main_call2.v2 Host.negf,
    StableHlo.binary main_v34 main_v36 main_v37 (mulf : (⟨S600000, .f32⟩ : BufTy).Contents (Elt F) → (⟨S600000, .f32⟩ : BufTy).Contents (Elt F) → (⟨S600000, .f32⟩ : BufTy).Contents (Elt F)),
    StableHlo.binary main_v32 main_v37 main_v38 (addf : (⟨S600000, .f32⟩ : BufTy).Contents (Elt F) → (⟨S600000, .f32⟩ : BufTy).Contents (Elt F) → (⟨S600000, .f32⟩ : BufTy).Contents (Elt F)),
    StableHlo.nullary main_cst_3 (constant S_ .f32 0x00000000#32),
    StableHlo.binary main_v38 main_cst_3 main_v39 ((fun x v => Host.reduceAdd x v reducesTo_S600000_S_d0 h_S_) : (⟨S600000, .f32⟩ : BufTy).Contents (Elt F) → (⟨S_, .f32⟩ : BufTy).Contents (Elt F) → (⟨S_, .f32⟩ : BufTy).Contents (Elt F)),
    StableHlo.nullary main_cst_4 (constant S_ .f32 0x49127C00#32),
    StableHlo.binary main_v39 main_cst_4 main_v40 (Host.divf : (⟨S_, .f32⟩ : BufTy).Contents (Elt F) → (⟨S_, .f32⟩ : BufTy).Contents (Elt F) → (⟨S_, .f32⟩ : BufTy).Contents (Elt F)),
    StableHlo.unary main_v40 main_v41 (Host.negf : (⟨S_, .f32⟩ : BufTy).Contents (Elt F) → (⟨S_, .f32⟩ : BufTy).Contents (Elt F)) ]

set_option maxRecDepth 8192 in
set_option maxHeartbeats 4000000 in
/-- @main is that straight line: with the three functions' bodies opened at their calls and the sequencing
    reassociated, both sides are one chain of the same steps. -/
theorem main_eq (c : Dev nD) : main (F := F) c = seq ops := by
  simp only [main, fn_relu.body, fn_softplus.body, fn_log_sigmoid.body, seq, bind_assoc, pure_bind]

/-- The program scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    reshape_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., binary_bufs_sub .., nullary_bufs_sub .., binary_bufs_sub ..,
    nullary_bufs_sub .., binary_bufs_sub .., unary_bufs_sub ..⟩

/-- From any memory with zero counters, every weakly fair execution of @main terminates, and every final state has
    each buffer at the fold of the eighty-one operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The stages of the reference's computation, each a function of the stages before it.

  The index words of one row of the pairs, wrapped (a negative word has the table's height added); the table rows
  they select; the two gathers side by side; the rectified first layer; the second layer recast to a vector of
  logits; the softplus and the log-sigmoid of a vector, as the module's functions compute them; the edges' terms;
  and the loss, minus the quotient of the sum of the terms by the number of edges. A vector used several times (the
  logits, the softplus's operand) appears once, as a variable of its stage. The operations are the program's own,
  with the program's own shape records.
-/
import proofs.«145935_j4123168604526_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Row `r` of the pairs as a vector of 600000 index words: the slice of that row, recast. -/
def rowWords (pairs : (⟨S2x600000, .i32⟩ : BufTy).Contents (Elt F)) (r : Nat) (h : S2x600000.Slices ![r, 0] S1x600000) :
    (⟨S600000, .i32⟩ : BufTy).Contents (Elt F) :=
  shapeCast S600000 (extractStridedSlice S1x600000 ![r, 0] pairs h) shapeCasts_S1x600000_S600000

/-- The words wrapped: where a word is negative, the word plus the table's height 50000. -/
def wrapWords (w : (⟨S600000, .i32⟩ : BufTy).Contents (Elt F)) : (⟨S600000, .i32⟩ : BufTy).Contents (Elt F) :=
  select (cmpi .slt w (broadcastInDim S600000 ![] bcast_S_S600000 (constantI S_ 32 0#32)))
    (addi w (broadcastInDim S600000 ![] bcast_S_S600000 (constantI S_ 32 50000#32))) w

/-- The table rows the words select: the gather of whole rows at the words as a column of start indices. -/
def tableRows (x : (⟨S50000x128, .f32⟩ : BufTy).Contents (Elt F)) (w : (⟨S600000, .i32⟩ : BufTy).Contents (Elt F)) : (⟨S600000x128, .f32⟩ : BufTy).Contents (Elt F) :=
  Host.gather gather_S50000x128_S600000x1_S600000x128_1_0_n_n_0_1_1128 x
    (broadcastInDim S600000x1 ![0] bcast_S600000_S600000x1_0 w)

/-- The edges' features: the source rows and the target rows side by side. -/
def featV (x : (⟨S50000x128, .f32⟩ : BufTy).Contents (Elt F)) (pairs : (⟨S2x600000, .i32⟩ : BufTy).Contents (Elt F)) : (⟨S600000x256, .f32⟩ : BufTy).Contents (Elt F) :=
  concatenate S600000x256 1
    [⟨S600000x128, tableRows x (wrapWords (rowWords pairs 0 slices_S2x600000_S1x600000_0_0))⟩,
     ⟨S600000x128, tableRows x (wrapWords (rowWords pairs 1 slices_S2x600000_S1x600000_1_0))⟩]
    concatenates_S600000x128_S600000x128_S600000x256_d1

/-- The hidden values: the features times the first weights' transpose, plus the first bias, rectified. -/
def hiddenV (x : (⟨S50000x128, .f32⟩ : BufTy).Contents (Elt F)) (W1 : (⟨S128x256, .f32⟩ : BufTy).Contents (Elt F)) (b1 : (⟨S128, .f32⟩ : BufTy).Contents (Elt F))
    (pairs : (⟨S2x600000, .i32⟩ : BufTy).Contents (Elt F)) : (⟨S600000x128, .f32⟩ : BufTy).Contents (Elt F) :=
  maximumf
    (addf
      (Host.dotGeneral dot_S600000x256_S256x128_S600000x128_1_0_0_1_n_n none (featV x pairs)
        (transpose S256x128 [1, 0] W1 transposes_S128x256_S256x128_1_0))
      (broadcastInDim S600000x128 ![0, 1] bcast_S1x128_S600000x128_0_1 (broadcastInDim S1x128 ![1] bcast_S128_S1x128_1 b1)))
    (broadcastInDim S600000x128 ![] bcast_S_S600000x128 (constant S_ .f32 0x00000000#32))

/-- The logits: the hidden values times the second weights' transpose, plus the second bias, as a vector. -/
def logitV (x : (⟨S50000x128, .f32⟩ : BufTy).Contents (Elt F)) (W1 : (⟨S128x256, .f32⟩ : BufTy).Contents (Elt F)) (b1 : (⟨S128, .f32⟩ : BufTy).Contents (Elt F))
    (W2 : (⟨S1x128, .f32⟩ : BufTy).Contents (Elt F)) (b2 : (⟨S1, .f32⟩ : BufTy).Contents (Elt F)) (pairs : (⟨S2x600000, .i32⟩ : BufTy).Contents (Elt F)) : (⟨S600000, .f32⟩ : BufTy).Contents (Elt F) :=
  shapeCast S600000
    (addf
      (Host.dotGeneral dot_S600000x128_S128x1_S600000x1_1_0_0_1_n_n none (hiddenV x W1 b1 pairs)
        (transpose S128x1 [1, 0] W2 transposes_S1x128_S128x1_1_0))
      (broadcastInDim S600000x1 ![0, 1] bcast_S1x1_S600000x1_0_1 (broadcastInDim S1x1 ![1] bcast_S1_S1x1_1 b2)))
    shapeCasts_S600000x1_S600000

/-- The zero literal as a vector of 600000. -/
def zeroV : (⟨S600000, .f32⟩ : BufTy).Contents (Elt F) :=
  broadcastInDim S600000 ![] bcast_S_S600000 (constant S_ .f32 0x00000000#32)

/-- The softplus of a vector, as the module's function computes it: where `a - 0` differs from itself, `a + 0`;
    elsewhere `max a 0 + log1p (exp (-|a - 0|))`. -/
def softplusV (a : (⟨S600000, .f32⟩ : BufTy).Contents (Elt F)) : (⟨S600000, .f32⟩ : BufTy).Contents (Elt F) :=
  select (cmpf .une (subf a zeroV) (subf a zeroV)) (addf a zeroV)
    (addf (maximumf a zeroV) (Host.log1p (Host.exp (Host.negf (Host.absf (subf a zeroV))))))

/-- The log-sigmoid of a vector: minus the softplus of minus the vector. -/
def logSigmoidV (a : (⟨S600000, .f32⟩ : BufTy).Contents (Elt F)) : (⟨S600000, .f32⟩ : BufTy).Contents (Elt F) :=
  Host.negf (softplusV (Host.negf a))

/-- The edges' terms from the labels and the logits: label times log-sigmoid of the logit, plus one minus the label
    times log-sigmoid of minus the logit. -/
def termV (lab z : (⟨S600000, .f32⟩ : BufTy).Contents (Elt F)) : (⟨S600000, .f32⟩ : BufTy).Contents (Elt F) :=
  addf (mulf lab (logSigmoidV z))
    (mulf (subf (broadcastInDim S600000 ![] bcast_S_S600000 (constant S_ .f32 0x3F800000#32)) lab)
      (logSigmoidV (Host.negf z)))

/-- The loss: minus the quotient of the terms' sum (from the zero literal) by the literal 600000. -/
def lossV (x : (⟨S50000x128, .f32⟩ : BufTy).Contents (Elt F)) (W1 : (⟨S128x256, .f32⟩ : BufTy).Contents (Elt F)) (b1 : (⟨S128, .f32⟩ : BufTy).Contents (Elt F))
    (W2 : (⟨S1x128, .f32⟩ : BufTy).Contents (Elt F)) (b2 : (⟨S1, .f32⟩ : BufTy).Contents (Elt F)) (lab : (⟨S600000, .f32⟩ : BufTy).Contents (Elt F))
    (pairs : (⟨S2x600000, .i32⟩ : BufTy).Contents (Elt F)) : (⟨S_, .f32⟩ : BufTy).Contents (Elt F) :=
  Host.negf
    (Host.divf
      (Host.reduceAdd (termV lab (logitV x W1 b1 W2 b2 pairs)) (constant S_ .f32 0x00000000#32) reducesTo_S600000_S_d0 h_S_)
      (constant S_ .f32 0x49127C00#32))

end Cert.ReferenceIdeal.RefValue

end
-- ==== Proof.RefRun.lean ====
/-
  The run of the reference's straight line, with the result as the composed stages.

  Folding the eighty-one operations over the launch contents and reading the fold at the result buffer gives one
  closed term of the seven argument arrays: the loss of the stages module, each shared vector in its one place. No
  operation writes an argument, so the fold leaves the seven arguments as launched.
-/
import proofs.«145935_j4123168604526_2_alg».proof.Proof.RefOps
import proofs.«145935_j4123168604526_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.gather concatenate in
set_option maxRecDepth 16384 in
set_option maxHeartbeats 32000000 in
/-- The fold of the operations at the result buffer is the loss of the launch contents of the seven arguments. -/
theorem out_eq (V : Valuation τ sig (Elt F)) :
    after ops V (main_v41 : DevRef τ sig)
      = lossV (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 16384 in
set_option maxHeartbeats 8000000 in
/-- No operation writes argument 0: the fold leaves it as launched. -/
theorem arg0_eq (V : Valuation τ sig (Elt F)) :
    after ops V (main_arg0 : DevRef τ sig) = V (main_arg0 : DevRef τ sig) := by
  after_results_simp

set_option maxRecDepth 16384 in
set_option maxHeartbeats 8000000 in
/-- No operation writes argument 1: the fold leaves it as launched. -/
theorem arg1_eq (V : Valuation τ sig (Elt F)) :
    after ops V (main_arg1 : DevRef τ sig) = V (main_arg1 : DevRef τ sig) := by
  after_results_simp

set_option maxRecDepth 16384 in
set_option maxHeartbeats 8000000 in
/-- No operation writes argument 2: the fold leaves it as launched. -/
theorem arg2_eq (V : Valuation τ sig (Elt F)) :
    after ops V (main_arg2 : DevRef τ sig) = V (main_arg2 : DevRef τ sig) := by
  after_results_simp

set_option maxRecDepth 16384 in
set_option maxHeartbeats 8000000 in
/-- No operation writes argument 3: the fold leaves it as launched. -/
theorem arg3_eq (V : Valuation τ sig (Elt F)) :
    after ops V (main_arg3 : DevRef τ sig) = V (main_arg3 : DevRef τ sig) := by
  after_results_simp

set_option maxRecDepth 16384 in
set_option maxHeartbeats 8000000 in
/-- No operation writes argument 4: the fold leaves it as launched. -/
theorem arg4_eq (V : Valuation τ sig (Elt F)) :
    after ops V (main_arg4 : DevRef τ sig) = V (main_arg4 : DevRef τ sig) := by
  after_results_simp

set_option maxRecDepth 16384 in
set_option maxHeartbeats 8000000 in
/-- No operation writes argument 5: the fold leaves it as launched. -/
theorem arg5_eq (V : Valuation τ sig (Elt F)) :
    after ops V (main_arg5 : DevRef τ sig) = V (main_arg5 : DevRef τ sig) := by
  after_results_simp

set_option maxRecDepth 16384 in
set_option maxHeartbeats 8000000 in
/-- No operation writes argument 6: the fold leaves it as launched. -/
theorem arg6_eq (V : Valuation τ sig (Elt F)) :
    after ops V (main_arg6 : DevRef τ sig) = V (main_arg6 : DevRef τ sig) := by
  after_results_simp

/-- THE RUN, with the result as the composed stages: every weakly fair execution of @main terminates with the result
    buffer at the loss of the launch contents and the seven arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = lossV (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_fold m ρ)

end Cert.ReferenceIdeal.RefValue

end
-- ==== Proof.RefRead.lean ====
/-
  The reference's stages read at an index: the loss of the stages module is the specification's loss.

  Every stage is an array; read at one index it is one expression of the argument arrays' elements. The index words:
  a slice of one row of the pairs recast to a vector reads that row's word; the wrap is pointwise. The gather of whole
  table rows at a column of start indices reads, at `(e, k)`, the table at the row the start index `e` names (read
  signed and clamped into the table) and column `k`. The concatenation along the columns reads the first piece below
  column 128 and the second piece, 128 columns back, from there on. A product contracting the left operand's
  columns with the right operand's rows is the sum over the contracted coordinate; the right operand being a
  transpose, the weights are read with their coordinates swapped. A bias recast and broadcast over the rows reads
  the bias at the column. The recast of the `[600000, 1]` logits to a vector reads column 0. In the softplus the
  comparison of a value with itself for inequality is false on the extended reals (there is no value that differs
  from itself), so the select takes its last operand; everything else is pointwise. The sum over the one axis of a
  vector into a scalar is the initial value plus the sum over all 600000 coordinates.
-/
import proofs.«145935_j4123168604526_2_alg».proof.Proof.RefStages
import proofs.«145935_j4123168604526_2_alg».proof.Proof.Spec
import proofs.«145935_j4123168604526_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Readings the library does not have at these shapes -/

/-- The gather of whole rows of a `[50000, 128]` table at a `[600000, 1]` column of start indices, read at `(e, k)`:
    the table at the row the start index `e` names, read as a signed integer and clamped into `[0, 49999]`, and
    column `k`. On the row axis the operand index is the clamped start (the axis is collapsed: no offset, and there
    is no batching axis); on the column axis the start is zero (the start index map does not name it) and the offset
    is the result's column. -/
theorem gather_rows_apply {α : Type} (x : (⟨2, ![50000, 128]⟩ : Shape).Idx → α) (idx : IVec ⟨2, ![600000, 1]⟩ 32)
    (e : Fin 600000) (k : Fin 128) :
    Host.gather gather_S50000x128_S600000x1_S600000x128_1_0_n_n_0_1_1128 x idx (ix2 e k)
      = x (ix2 (⟨min (idx (ix2 e (0 : Fin 1))).toInt.toNat 49999, Nat.lt_succ_of_le (Nat.min_le_right _ _)⟩ : Fin 50000) k) := by
  unfold Host.gather
  congr 1
  funext a
  refine Fin.ext ?_
  match a with
  | ⟨0, h0⟩ =>
    show gather_S50000x128_S600000x1_S600000x128_1_0_n_n_0_1_1128.start (ix2 e k) idx ⟨0, h0⟩
        + gather_S50000x128_S600000x1_S600000x128_1_0_n_n_0_1_1128.batchCoord (ix2 e k) ⟨0, h0⟩
        + gather_S50000x128_S600000x1_S600000x128_1_0_n_n_0_1_1128.offCoord (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S50000x128.rank) ∈ gather_S50000x128_S600000x1_S600000x128_1_0_n_n_0_1_1128.startIndexMap from List.mem_singleton.mpr rfl)]
    have hsi : gather_S50000x128_S600000x1_S600000x128_1_0_n_n_0_1_1128.siIdx (ix2 e k)
        ⟨List.idxOf (⟨0, h0⟩ : Fin S50000x128.rank) gather_S50000x128_S600000x1_S600000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show gather_S50000x128_S600000x1_S600000x128_1_0_n_n_0_1_1128.start (ix2 e k) idx ⟨1, h1⟩
        + gather_S50000x128_S600000x1_S600000x128_1_0_n_n_0_1_1128.batchCoord (ix2 e k) ⟨1, h1⟩
        + gather_S50000x128_S600000x1_S600000x128_1_0_n_n_0_1_1128.offCoord (ix2 e k) ⟨1, h1⟩ = k.val
    rw [GatherDims.batchCoord_eq_zero _ _ _ List.not_mem_nil]
    unfold GatherDims.start
    have hn : (⟨1, h1⟩ : Fin S50000x128.rank) ∉ gather_S50000x128_S600000x1_S600000x128_1_0_n_n_0_1_1128.startIndexMap := fun hm =>
      absurd (show (1 : ℕ) = 0 from congrArg Fin.val (List.mem_singleton.mp (show (⟨1, h1⟩ : Fin S50000x128.rank) ∈ [(0 : Fin S50000x128.rank)] from hm))) Nat.one_ne_zero
    rw [dif_neg hn]
    simp only [Nat.add_zero, Nat.zero_add]
    rfl

/-- A column `[a, 1]` recast to the vector `[a]` reads, at `r`, the column's entry of row `r`: the two indices have
    the same row-major position. -/
theorem shapeCast_a1_a_apply {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- On the extended reals no value differs from itself: the comparison "not equal" of a value with itself is the
    bit 0. -/
theorem cmp_une_self (v : EReal) : FloatOps.cmpf (F := Ideal) (φ := .f32) .une v v = 0#1 := by
  show Ideal.cmp .une v v = 0#1
  simp [Ideal.cmp]

/-! ## The stages at an index -/

section
variable (x : (⟨2, ![50000, 128]⟩ : Shape).Idx → EReal) (W1 : (⟨2, ![128, 256]⟩ : Shape).Idx → EReal)
  (b1 : (⟨1, ![128]⟩ : Shape).Idx → EReal) (W2 : (⟨2, ![1, 128]⟩ : Shape).Idx → EReal)
  (b2 : (⟨1, ![1]⟩ : Shape).Idx → EReal) (lab : (⟨1, ![600000]⟩ : Shape).Idx → EReal)
  (pairs : (⟨2, ![2, 600000]⟩ : Shape).Idx → BitVec 32)

/-- Row 0 of the pairs, sliced and recast, reads at `e` the word `pairs[0, e]`. -/
theorem rowWords0_apply (e : Fin 600000) :
    rowWords (F := Ideal) pairs 0 slices_S2x600000_S1x600000_0_0 (ix1 e) = pairs (ix2 (0 : Fin 2) e) := by
  unfold rowWords
  refine (shapeCast_1a_a_apply _ _ e).trans ?_
  exact slice2_axis0_apply 0 pairs _ (0 : Fin 1) e (0 : Fin 2) rfl

/-- Row 1 of the pairs, sliced and recast, reads at `e` the word `pairs[1, e]`. -/
theorem rowWords1_apply (e : Fin 600000) :
    rowWords (F := Ideal) pairs 1 slices_S2x600000_S1x600000_1_0 (ix1 e) = pairs (ix2 (1 : Fin 2) e) := by
  unfold rowWords
  refine (shapeCast_1a_a_apply _ _ e).trans ?_
  exact slice2_axis0_apply 1 pairs _ (0 : Fin 1) e (1 : Fin 2) rfl

/-- The wrap is pointwise: where the word is negative, the word plus 50000. -/
theorem wrapWords_apply (w : (⟨1, ![600000]⟩ : Shape).Idx → BitVec 32) (e : Fin 600000) :
    wrapWords (F := Ideal) w (ix1 e)
      = Scalar.select (IntOp.cmpi .slt (w (ix1 e)) 0#32) (IntOp.addi (w (ix1 e)) 50000#32) (w (ix1 e)) := rfl

/-- The gathered rows at `(e, k)`: the table at the row the word `e` names, clamped, and column `k`. -/
theorem tableRows_apply (w : (⟨1, ![600000]⟩ : Shape).Idx → BitVec 32) (e : Fin 600000) (k : Fin 128) :
    tableRows (F := Ideal) x w (ix2 e k)
      = x (ix2 (⟨min (w (ix1 e)).toInt.toNat 49999, Nat.lt_succ_of_le (Nat.min_le_right _ _)⟩ : Fin 50000) k) := by
  unfold tableRows
  refine (gather_rows_apply x _ e k).trans ?_
  have hb : broadcastInDim S600000x1 ![0] bcast_S600000_S600000x1_0 w (ix2 e (0 : Fin 1)) = w (ix1 e) :=
    broadcastInDim_apply _ _ w _ _ fun a => match a with
      | ⟨0, _⟩ => (if_neg (by decide : ¬ ((600000 : ℕ) = 1))).symm
  exact congrArg (fun n => x (ix2 n k)) (Fin.ext (by show min _ 49999 = min _ 49999; rw [hb]))

/-- The rows selected by row 0 of the pairs (the edges' sources): the table at the node of the word. -/
theorem sourceRows_apply (e : Fin 600000) (k : Fin 128) :
    tableRows (F := Ideal) x (wrapWords (rowWords pairs 0 slices_S2x600000_S1x600000_0_0)) (ix2 e k)
      = x (ix2 (LinkLoss.node (pairs (ix2 (0 : Fin 2) e))) k) := by
  refine (tableRows_apply x _ e k).trans ?_
  have hw : wrapWords (F := Ideal) (rowWords pairs 0 slices_S2x600000_S1x600000_0_0) (ix1 e)
      = Scalar.select (IntOp.cmpi .slt (pairs (ix2 (0 : Fin 2) e)) 0#32) (IntOp.addi (pairs (ix2 (0 : Fin 2) e)) 50000#32)
          (pairs (ix2 (0 : Fin 2) e)) := by
    rw [wrapWords_apply, rowWords0_apply]
  exact congrArg (fun n => x (ix2 n k)) (Fin.ext (by show min _ 49999 = min _ 49999; rw [hw]))

/-- The rows selected by row 1 of the pairs (the edges' targets): the table at the node of the word. -/
theorem targetRows_apply (e : Fin 600000) (k : Fin 128) :
    tableRows (F := Ideal) x (wrapWords (rowWords pairs 1 slices_S2x600000_S1x600000_1_0)) (ix2 e k)
      = x (ix2 (LinkLoss.node (pairs (ix2 (1 : Fin 2) e))) k) := by
  refine (tableRows_apply x _ e k).trans ?_
  have hw : wrapWords (F := Ideal) (rowWords pairs 1 slices_S2x600000_S1x600000_1_0) (ix1 e)
      = Scalar.select (IntOp.cmpi .slt (pairs (ix2 (1 : Fin 2) e)) 0#32) (IntOp.addi (pairs (ix2 (1 : Fin 2) e)) 50000#32)
          (pairs (ix2 (1 : Fin 2) e)) := by
    rw [wrapWords_apply, rowWords1_apply]
  exact congrArg (fun n => x (ix2 n k)) (Fin.ext (by show min _ 49999 = min _ 49999; rw [hw]))

/-- The features at `(e, k)`: the source node's row below column 128, the target node's row from there on. -/
theorem featV_apply (e : Fin 600000) (k : Fin 256) :
    featV (F := Ideal) x pairs (ix2 e k) = LinkLoss.feat x pairs e k := by
  unfold featV LinkLoss.feat
  split
  · next h =>
    refine (concatenate_pair_apply_left (t := S600000x256) (s₁ := S600000x128) (s₂ := S600000x128) (1 : Fin 2) _ _ _ (ix2 e k) rfl (ix2 e (⟨k.val, h⟩ : Fin 128))
      (fun b => match b with | ⟨0, _⟩ => rfl | ⟨1, _⟩ => rfl)).trans ?_
    exact sourceRows_apply x pairs e _
  · next h =>
    refine (concatenate_pair_apply_right (t := S600000x256) (s₁ := S600000x128) (s₂ := S600000x128) (1 : Fin 2) _ _ _ (ix2 e k) rfl rfl (ix2 e (⟨k.val - 128, by omega⟩ : Fin 128))
      (fun b hb => match b, hb with | ⟨0, _⟩, _ => rfl | ⟨1, _⟩, hb => absurd rfl hb)
      (by show (k.val - 128) + 128 = k.val; omega)).trans ?_
    exact targetRows_apply x pairs e _

/-- The first bias recast to a row and broadcast over the edges reads the bias at the column. -/
theorem bias1_apply (e : Fin 600000) (d : Fin 128) :
    broadcastInDim S600000x128 ![0, 1] bcast_S1x128_S600000x128_0_1 (broadcastInDim S1x128 ![1] bcast_S128_S1x128_1 b1) (ix2 e d)
      = b1 (ix1 d) := by
  refine (broadcastInDim_apply _ _ _ (ix2 e d) (ix2 (0 : Fin 1) d) fun a => match a with
    | ⟨0, _⟩ => (if_pos (rfl : (1 : ℕ) = 1)).symm
    | ⟨1, _⟩ => (if_neg (by decide : ¬ ((128 : ℕ) = 1))).symm).trans ?_
  exact broadcastInDim_apply _ _ b1 (ix2 (0 : Fin 1) d) (ix1 d) fun a => match a with
    | ⟨0, _⟩ => (if_neg (by decide : ¬ ((128 : ℕ) = 1))).symm

/-- The second bias recast and broadcast over the edges reads the bias's one entry. -/
theorem bias2_apply (e : Fin 600000) :
    broadcastInDim S600000x1 ![0, 1] bcast_S1x1_S600000x1_0_1 (broadcastInDim S1x1 ![1] bcast_S1_S1x1_1 b2) (ix2 e (0 : Fin 1))
      = b2 (ix1 (0 : Fin 1)) := by
  refine (broadcastInDim_apply _ _ _ (ix2 e (0 : Fin 1)) (ix2 (0 : Fin 1) (0 : Fin 1)) fun a => match a with
    | ⟨0, _⟩ => (if_pos (rfl : (1 : ℕ) = 1)).symm
    | ⟨1, _⟩ => (if_pos (rfl : (1 : ℕ) = 1)).symm).trans ?_
  exact broadcastInDim_apply _ _ b2 (ix2 (0 : Fin 1) (0 : Fin 1)) (ix1 (0 : Fin 1)) fun a => match a with
    | ⟨0, _⟩ => (if_pos (rfl : (1 : ℕ) = 1)).symm

/-- The hidden values at `(e, d)`. -/
theorem hiddenV_apply (e : Fin 600000) (d : Fin 128) :
    hiddenV (F := Ideal) x W1 b1 pairs (ix2 e d) = LinkLoss.hidden x W1 b1 pairs e d := by
  unfold hiddenV LinkLoss.hidden
  have hdot : Host.dotGeneral (F := Ideal) (φ₁ := .f32) (φ₂ := .f32) dot_S600000x256_S256x128_S600000x128_1_0_0_1_n_n none (featV (F := Ideal) x pairs)
        (transpose S256x128 [1, 0] W1 transposes_S128x256_S256x128_1_0) (ix2 e d)
      = ∑ k : Fin 256, LinkLoss.feat x pairs e k * W1 (ix2 d k) := by
    refine (Gcn.Lib.plain_dotGeneral_apply (M := 600000) (K := 256) (N := 128) _ _ none .single e d).trans ?_
    refine Finset.sum_congr rfl fun k _ => ?_
    rw [featV_apply, transpose_ix2_apply]
  rw [maximumf_apply, addf_apply, hdot, bias1_apply]
  rfl

/-- The logits at `e`. -/
theorem logitV_apply (e : Fin 600000) :
    logitV (F := Ideal) x W1 b1 W2 b2 pairs (ix1 e) = LinkLoss.logit x W1 b1 W2 b2 pairs e := by
  unfold logitV LinkLoss.logit
  refine (shapeCast_a1_a_apply _ _ e).trans ?_
  have hdot : Host.dotGeneral (F := Ideal) (φ₁ := .f32) (φ₂ := .f32) dot_S600000x128_S128x1_S600000x1_1_0_0_1_n_n none (hiddenV (F := Ideal) x W1 b1 pairs)
        (transpose S128x1 [1, 0] W2 transposes_S1x128_S128x1_1_0) (ix2 e (0 : Fin 1))
      = ∑ d : Fin 128, LinkLoss.hidden x W1 b1 pairs e d * W2 (ix2 (0 : Fin 1) d) := by
    refine (Gcn.Lib.plain_dotGeneral_apply (M := 600000) (K := 128) (N := 1) _ _ none .single e (0 : Fin 1)).trans ?_
    refine Finset.sum_congr rfl fun d _ => ?_
    rw [hiddenV_apply, transpose_ix2_apply]
  rw [addf_apply, hdot, bias2_apply]

end

/-- The softplus at `e`: the select's condition is false, so its last operand; the rest is pointwise. -/
theorem softplusV_apply (a : (⟨1, ![600000]⟩ : Shape).Idx → EReal) (e : Fin 600000) :
    softplusV (F := Ideal) a (ix1 e) = LinkLoss.softplus (a (ix1 e)) := by
  unfold softplusV
  rw [select_apply, cmpf_apply, cmp_une_self, select_zero]
  rfl

/-- The log-sigmoid at `e`. -/
theorem logSigmoidV_apply (a : (⟨1, ![600000]⟩ : Shape).Idx → EReal) (e : Fin 600000) :
    logSigmoidV (F := Ideal) a (ix1 e) = LinkLoss.logSigmoid (a (ix1 e)) := by
  unfold logSigmoidV LinkLoss.logSigmoid
  exact congrArg (fun v : EReal => -v) (softplusV_apply (Host.negf (F := Ideal) (s := S600000) (φ := .f32) a) e)

/-- The term of edge `e`. -/
theorem termV_apply (lab z : (⟨1, ![600000]⟩ : Shape).Idx → EReal) (e : Fin 600000) :
    termV (F := Ideal) lab z (ix1 e) = LinkLoss.term (lab (ix1 e)) (z (ix1 e)) := by
  unfold termV LinkLoss.term
  rw [addf_apply, mulf_apply, mulf_apply, logSigmoidV_apply, logSigmoidV_apply]
  rfl

/-- THE REFERENCE'S RESULT IS THE SPECIFICATION'S LOSS, at the scalar's one index. -/
theorem lossV_eq (x : (⟨2, ![50000, 128]⟩ : Shape).Idx → EReal) (W1 : (⟨2, ![128, 256]⟩ : Shape).Idx → EReal)
    (b1 : (⟨1, ![128]⟩ : Shape).Idx → EReal) (W2 : (⟨2, ![1, 128]⟩ : Shape).Idx → EReal)
    (b2 : (⟨1, ![1]⟩ : Shape).Idx → EReal) (lab : (⟨1, ![600000]⟩ : Shape).Idx → EReal)
    (pairs : (⟨2, ![2, 600000]⟩ : Shape).Idx → BitVec 32) :
    lossV (F := Ideal) x W1 b1 W2 b2 lab pairs = fun _ => LinkLoss.loss x W1 b1 W2 b2 lab pairs := by
  funext j
  have hs : Host.reduceAdd (F := Ideal) (termV (F := Ideal) lab (logitV (F := Ideal) x W1 b1 W2 b2 pairs))
        (constant S_ .f32 0x00000000#32) reducesTo_S600000_S_d0 h_S_ j
      = LinkLoss.zeroLit + ∑ e : Fin 600000, LinkLoss.term (lab (ix1 e)) (LinkLoss.logit x W1 b1 W2 b2 pairs e) := by
    unfold Host.reduceAdd
    refine (Ideal.hostReduceAdd_total reducesTo_S600000_S_d0 (fun b => b.elim0) _ _ j).trans ?_
    rw [sum_idx1]
    refine congrArg (LinkLoss.zeroLit + ·) (Finset.sum_congr rfl fun e _ => ?_)
    rw [termV_apply, logitV_apply]
  unfold lossV LinkLoss.loss
  show -(Ideal.div (Host.reduceAdd (F := Ideal) (termV (F := Ideal) lab (logitV (F := Ideal) x W1 b1 W2 b2 pairs))
        (constant S_ .f32 0x00000000#32) reducesTo_S600000_S_d0 h_S_ j) (Ideal.ofBits .f32 0x49127C00#32)) = _
  rw [hs]

end Cert.ReferenceIdeal.RefValue

end
-- ==== Proof.RefValue.lean ====
/-
  The reference's run, with its result read as the specification's loss.

  Every weakly fair execution of the reference's @main, from any memory with zero counters, terminates without a
  fault; the result buffer then holds, at its one index, the link-prediction loss of the seven argument arrays as
  the specification states it, and the seven argument arrays are unchanged. The run gives the result as the composed
  stages of the computation; read at an index, the stages are the specification's functions.
-/
import proofs.«145935_j4123168604526_2_alg».proof.Proof.RefRun
import proofs.«145935_j4123168604526_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- THE REFERENCE'S RUN: it terminates, its result is the specification's loss of the launch contents of the seven
    arguments, and the arguments end as launched. No precondition is needed: the reading of the stages at an index
    uses no finiteness. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v41)
            = (fun _ => LinkLoss.loss (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c).1.trans (lossV_eq _ _ _ _ _ _ _), (h c).2⟩) (run_stages (F := Ideal) m ρ)

end Cert.ReferenceIdeal.RefValue

end
-- ==== Proof.lean ====
/-
  A link-prediction loss: the kernel and its reference compute the same extended real.

  For each of 600000 edges both programs take the two rows of the node table `x` that the edge's index words select,
  put them side by side, apply a linear layer with a rectifier and a second linear layer to get a logit `z`, and take
  the binary cross-entropy term `y · log σ(z) + (1 - y) · log σ(-z)` of the edge's label `y`; the result is minus the
  mean of the terms. The reference does this in one piece. The kernel pads the edges to 606208 = 74 · 8192, gathers
  the rows on the host, and runs a grid of 74 points (two cores, 37 points each): a point computes the logits of its
  8192 edges (the first layer as two 128-wide products, the second as a product contracted on both last axes), the
  negated term of each edge masked by a 0/1 weight that is 0 on the padding, and adds the sum over its lanes to a
  one-element block that is reset at a core's first point and written back after its last; the host then adds the
  two cores' sums and divides by 600000.

  On the extended reals the two are equal when the float inputs are finite: the kernel's masked term of a real edge
  is minus the reference's term (`min z 0 = -max (-z) 0`, `|-z| = |z|`), the padding contributes `0`, regrouping the
  606208 terms by point and lane only uses that addition is commutative and associative, and the negation moves out
  of the 600000-term sum because every term is a real number. Finiteness is used exactly there.

  The frames of the two kernel programs are the generated ones. The reference's frame is its run with the result
  dropped. The idealization rewrote nothing, so `preserves` is `True`.
-/
import proofs.«145935_j4123168604526_2_alg».proof.Defs
import proofs.«145935_j4123168604526_2_alg».proof.Proof.Gen.Kernel
import proofs.«145935_j4123168604526_2_alg».proof.Proof.Gen.Kernel.Skeleton
import proofs.«145935_j4123168604526_2_alg».proof.Proof.Gen.Kernel.Launch
import proofs.«145935_j4123168604526_2_alg».proof.Proof.Gen.Kernel.Points
import proofs.«145935_j4123168604526_2_alg».proof.Proof.Gen.Kernel.Frame
import proofs.«145935_j4123168604526_2_alg».proof.Proof.Gen.KernelIdeal
import proofs.«145935_j4123168604526_2_alg».proof.Proof.Gen.KernelIdeal.Skeleton
import proofs.«145935_j4123168604526_2_alg».proof.Proof.Gen.KernelIdeal.Launch
import proofs.«145935_j4123168604526_2_alg».proof.Proof.Gen.KernelIdeal.Points
import proofs.«145935_j4123168604526_2_alg».proof.Proof.Gen.KernelIdeal.Frame
import proofs.«145935_j4123168604526_2_alg».proof.Proof.Gen.ReferenceIdeal
import proofs.«145935_j4123168604526_2_alg».proof.Proof.Gen.Pre_finite_inputs
import proofs.«145935_j4123168604526_2_alg».proof.Proof.KLoss
import proofs.«145935_j4123168604526_2_alg».proof.Proof.RefValue
import Idealize.ShloMosaic.Adequacy
import Idealize.ShloMosaic.Init

noncomputable section

namespace Cert.Proof

open Idealize.ShloMosaic Idealize.SL.Sem Cert.Kernel

/-- The reference's frame: its run, with the result dropped. -/
theorem frame_reference : Cert.frame_ReferenceIdeal := fun m ρ _ =>
  (θ_run Cert.ReferenceIdeal.defs _ _).mono (fun _ h c => (h c).2) (Cert.ReferenceIdeal.RefValue.run m ρ)

/-- From memories that agree on the arguments both programs end at the loss of the kernel's arguments: the kernel by
    its run and the bridge (which uses the precondition), the reference by its run at arguments that agree. -/
theorem algebraic : Cert.algebraic_KernelIdeal_ReferenceIdeal := by
  intro m ρ m' ρ' hpre hagree
  refine ⟨fun c => (fun _ => Cert.KernelIdeal.KValue.kResult m c), Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6⟩ := hagree c
  rw [a0, a1, a2, a3, a4, a5, a6]
  exact funext fun _ => (Cert.KernelIdeal.KValue.kResult_eq_loss m hpre c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
